-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100000 : Shape := ⟨2, ![64, 100000]⟩
abbrev S1600000 : Shape := ⟨1, ![1600000]⟩
abbrev S160000 : Shape := ⟨1, ![160000]⟩
abbrev S100000 : Shape := ⟨1, ![100000]⟩
abbrev S10000 : Shape := ⟨1, ![10000]⟩
abbrev S_ : Shape := ⟨0, ![]⟩

class Facts : Prop where
  bcast_S_S64x100000 : S_.BroadcastsInDim S64x100000 (![] : Fin 0 → Fin S64x100000.rank)
  reducesTo_S64x100000_S_d0_1 : S64x100000.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S160000 : S_.BroadcastsInDim S160000 (![] : Fin 0 → Fin S160000.rank)
  reducesTo_S160000_S_d0 : S160000.ReducesTo [0] S_
  bcast_S_S100000 : S_.BroadcastsInDim S100000 (![] : Fin 0 → Fin S100000.rank)
  reducesTo_S100000_S_d0 : S100000.ReducesTo [0] S_
  bcast_S_S10000 : S_.BroadcastsInDim S10000 (![] : Fin 0 → Fin S10000.rank)
  reducesTo_S10000_S_d0 : S10000.ReducesTo [0] S_

variable [Facts]

def fn_part2 {F : FTy → Type} [FloatOps F] (main_arg7 : FVec F S160000 .f32) (main_v33 : IVec S_ 1) : IVec S_ 1 :=
  let main_v34 : FVec F S160000 .f32 := Host.absf main_arg7
  let main_cst_12 : FVec F S_ .f32 := constant S_ .f32 0x7F800000#32
  let main_v35 : FVec F S160000 .f32 := broadcastInDim S160000 ![] bcast_S_S160000 main_cst_12
  let main_v36 : IVec S160000 1 := cmpf .olt main_v34 main_v35
  let main_c_13 : IVec S_ 1 := constantI S_ 1 1#1
  let main_v37 : IVec S_ 1 := (fun x v => Host.reduce IntOp.andi x v reducesTo_S160000_S_d0 h_S_) main_v36 main_c_13
  let main_v38 : IVec S_ 1 := andi main_v33 main_v37
  main_v38

def fn_part1 {F : FTy → Type} [FloatOps F] (main_arg4 : FVec F S100000 .f32) (main_arg5 : FVec F S10000 .f32) (main_arg6 : FVec F S10000 .f32) (main_arg7 : FVec F S160000 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S100000 .f32 := Host.absf main_arg4
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_v24 : FVec F S10000 .f32 := Host.absf main_arg5
  let main_cst_8 : FVec F S_ .f32 := constant S_ .f32 0x7F800000#32
  let main_v25 : FVec F S10000 .f32 := broadcastInDim S10000 ![] bcast_S_S10000 main_cst_8
  let main_v26 : IVec S10000 1 := cmpf .olt main_v24 main_v25
  let main_c_9 : IVec S_ 1 := constantI S_ 1 1#1
  let main_v27 : IVec S_ 1 := (fun x v => Host.reduce IntOp.andi x v reducesTo_S10000_S_d0 h_S_) main_v26 main_c_9
  let main_v28 : IVec S_ 1 := andi main_v23 main_v27
  let main_v29 : FVec F S10000 .f32 := Host.absf main_arg6
  let main_cst_10 : FVec F S_ .f32 := constant S_ .f32 0x7F800000#32
  let main_v30 : FVec F S10000 .f32 := broadcastInDim S10000 ![] bcast_S_S10000 main_cst_10
  let main_v31 : IVec S10000 1 := cmpf .olt main_v29 main_v30
  let main_c_11 : IVec S_ 1 := constantI S_ 1 1#1
  let main_v32 : IVec S_ 1 := (fun x v => Host.reduce IntOp.andi x v reducesTo_S10000_S_d0 h_S_) main_v31 main_c_11
  let main_v33 : IVec S_ 1 := andi main_v28 main_v32
  fn_part2 (F := F) main_arg7 main_v33

def fn {F : FTy → Type} [FloatOps F] (main_arg0 : FVec F S64x100000 .f32) (main_arg1 : FVec F S1600000 .f32) (main_arg2 : FVec F S160000 .f32) (main_arg3 : FVec F S1600000 .f32) (main_arg4 : FVec F S100000 .f32) (main_arg5 : FVec F S10000 .f32) (main_arg6 : FVec F S10000 .f32) (main_arg7 : FVec F S160000 .f32) (main_arg8 : IVec S1600000 32) (main_arg9 : IVec S1600000 32) (main_arg10 : IVec S1600000 32) (main_arg11 : IVec S1600000 32) : IVec S_ 1 :=
  let main_v0 : FVec F S64x100000 .f32 := Host.absf main_arg0
  let main_cst : FVec F S_ .f32 := constant S_ .f32 0x7F800000#32
  let main_v1 : FVec F S64x100000 .f32 := broadcastInDim S64x100000 ![] bcast_S_S64x100000 main_cst
  let main_v2 : IVec S64x100000 1 := cmpf .olt main_v0 main_v1
  let main_c : IVec S_ 1 := constantI S_ 1 1#1
  let main_v3 : IVec S_ 1 := (fun x v => Host.reduce IntOp.andi x v reducesTo_S64x100000_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S160000 .f32 := Host.absf main_arg2
  let main_cst_2 : FVec F S_ .f32 := constant S_ .f32 0x7F800000#32
  let main_v10 : FVec F S160000 .f32 := broadcastInDim S160000 ![] bcast_S_S160000 main_cst_2
  let main_v11 : IVec S160000 1 := cmpf .olt main_v9 main_v10
  let main_c_3 : IVec S_ 1 := constantI S_ 1 1#1
  let main_v12 : IVec S_ 1 := (fun x v => Host.reduce IntOp.andi x v reducesTo_S160000_S_d0 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg4 main_arg5 main_arg6 main_arg7 main_v13 main_v16
-- ==== Kernel.lean ====
abbrev S64x100000 : Shape := ⟨2, ![64, 100000]⟩
abbrev S1600000 : Shape := ⟨1, ![1600000]⟩
abbrev S160000 : Shape := ⟨1, ![160000]⟩
abbrev S100000 : Shape := ⟨1, ![100000]⟩
abbrev S10000 : Shape := ⟨1, ![10000]⟩
abbrev S_ : Shape := ⟨0, ![]⟩
abbrev S1600000x1 : Shape := ⟨2, ![1600000, 1]⟩
abbrev S64x1600000 : Shape := ⟨2, ![64, 1600000]⟩
abbrev S1x1600000 : Shape := ⟨2, ![1, 1600000]⟩
abbrev S1600000x64 : Shape := ⟨2, ![1600000, 64]⟩
abbrev S160000x64 : Shape := ⟨2, ![160000, 64]⟩
abbrev S64x160000 : Shape := ⟨2, ![64, 160000]⟩
abbrev S64x10000x16 : Shape := ⟨3, ![64, 10000, 16]⟩
abbrev S10000x16 : Shape := ⟨2, ![10000, 16]⟩
abbrev S10000x1 : Shape := ⟨2, ![10000, 1]⟩
abbrev S1x10000x16 : Shape := ⟨3, ![1, 10000, 16]⟩
abbrev S1x10000 : Shape := ⟨2, ![1, 10000]⟩
abbrev S1x10000x1 : Shape := ⟨3, ![1, 10000, 1]⟩
abbrev S100000x64 : Shape := ⟨2, ![100000, 64]⟩
abbrev S16x100000 : Shape := ⟨2, ![16, 100000]⟩
abbrev S1x100000 : Shape := ⟨2, ![1, 100000]⟩

abbrev nBuf : Space → Nat
  | .hbm => 56
  | .vmem => 15
  | .smem => 0
  | _ => 0

abbrev bufTy : (tb : Table) → Fin (tcTables nBuf tb) → BufTy
  | .hbm, ⟨0, _⟩ => ⟨S64x100000, .f32⟩
  | .hbm, ⟨1, _⟩ => ⟨S1600000, .f32⟩
  | .hbm, ⟨2, _⟩ => ⟨S160000, .f32⟩
  | .hbm, ⟨3, _⟩ => ⟨S1600000, .f32⟩
  | .hbm, ⟨4, _⟩ => ⟨S100000, .f32⟩
  | .hbm, ⟨5, _⟩ => ⟨S10000, .f32⟩
  | .hbm, ⟨6, _⟩ => ⟨S10000, .f32⟩
  | .hbm, ⟨7, _⟩ => ⟨S160000, .f32⟩
  | .hbm, ⟨8, _⟩ => ⟨S1600000, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S64x1600000, .f32⟩
  | .hbm, ⟨21, _⟩ => ⟨S1x1600000, .f32⟩
  | .hbm, ⟨22, _⟩ => ⟨S64x1600000, .f32⟩
  | .hbm, ⟨23, _⟩ => ⟨S64x1600000, .f32⟩
  | .hbm, ⟨24, _⟩ => ⟨S1600000x64, .f32⟩
  | .hbm, ⟨25, _⟩ => ⟨S_, .f32⟩
  | .hbm, ⟨26, _⟩ => ⟨S160000x64, .f32⟩
  | .hbm, ⟨27, _⟩ => ⟨S1600000x1, .i32⟩
  | .hbm, ⟨28, _⟩ => ⟨S160000x64, .f32⟩
  | .hbm, ⟨29, _⟩ => ⟨S64x160000, .f32⟩
  | .hbm, ⟨30, _⟩ => ⟨S64x10000x16, .f32⟩
  | .hbm, ⟨31, _⟩ => ⟨S10000x16, .f32⟩
  | .hbm, ⟨32, _⟩ => ⟨S10000x1, .f32⟩
  | .hbm, ⟨33, _⟩ => ⟨S10000x1, .f32⟩
  | .hbm, ⟨34, _⟩ => ⟨S10000x16, .f32⟩
  | .hbm, ⟨35, _⟩ => ⟨S64x10000x16, .f32⟩
  | .hbm, ⟨36, _⟩ => ⟨S64x160000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S64x1600000, .f32⟩
  | .hbm, ⟨46, _⟩ => ⟨S1x1600000, .f32⟩
  | .hbm, ⟨47, _⟩ => ⟨S64x1600000, .f32⟩
  | .hbm, ⟨48, _⟩ => ⟨S64x1600000, .f32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S64x100000, .f32⟩
  | .hbm, ⟨55, _⟩ => ⟨S64x100000, .f32⟩
  | .local _ .vmem, ⟨0, _⟩ => ⟨S1x10000x16, .f32⟩
  | .local _ .vmem, ⟨1, _⟩ => ⟨S1x10000x16, .f32⟩
  | .local _ .vmem, ⟨2, _⟩ => ⟨S10000x16, .f32⟩
  | .local _ .vmem, ⟨3, _⟩ => ⟨S10000x1, .f32⟩
  | .local _ .vmem, ⟨4, _⟩ => ⟨S10000x1, .f32⟩
  | .local _ .vmem, ⟨5, _⟩ => ⟨S10000x16, .f32⟩
  | .local _ .vmem, ⟨6, _⟩ => ⟨S1x10000x16, .f32⟩
  | .local _ .vmem, ⟨7, _⟩ => ⟨S1x10000x16, .f32⟩
  | .local _ .vmem, ⟨8, _⟩ => ⟨S16x100000, .f32⟩
  | .local _ .vmem, ⟨9, _⟩ => ⟨S16x100000, .f32⟩
  | .local _ .vmem, ⟨10, _⟩ => ⟨S100000, .f32⟩
  | .local _ .vmem, ⟨11, _⟩ => ⟨S16x100000, .f32⟩
  | .local _ .vmem, ⟨12, _⟩ => ⟨S16x100000, .f32⟩
  | .local _ .vmem, ⟨13, _⟩ => ⟨S16x100000, .f32⟩
  | .local _ .vmem, ⟨14, _⟩ => ⟨S16x100000, .f32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_1 : Ref sig .tc := ⟨.hbm, 37, rfl⟩
abbrev main_v22 : Ref sig .tc := ⟨.hbm, 38, rfl⟩
abbrev main_v23 : Ref sig .tc := ⟨.hbm, 39, rfl⟩
abbrev main_c_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10000x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x10000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x100000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S100000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16x100000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x100000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000_S1x1600000_1 : S1600000.BroadcastsInDim S1x1600000 (![1] : Fin 1 → Fin S1x1600000.rank)
  bcast_S1x1600000_S64x1600000_0_1 : S1x1600000.BroadcastsInDim S64x1600000 (![0, 1] : Fin 2 → Fin S64x1600000.rank)
  transposes_S64x1600000_S1600000x64_1_0 : S64x1600000.Transposes [1, 0] S1600000x64
  bcast_S_S160000x64 : S_.BroadcastsInDim S160000x64 (![] : Fin 0 → Fin S160000x64.rank)
  transposes_S160000x64_S64x160000_1_0 : S160000x64.Transposes [1, 0] S64x160000
  shapeCasts_S64x160000_S64x10000x16 : S64x160000.ShapeCasts S64x10000x16
  shapeCasts_S160000_S10000x16 : S160000.ShapeCasts S10000x16
  shapeCasts_S10000_S10000x1 : S10000.ShapeCasts S10000x1
  inb_S1x10000x16_S1x10000x16_0_0_0 : ∀ a, (![0, 0, 0] : Fin 3 → Nat) a + S1x10000x16.size a ≤ S1x10000x16.size a
  h_S1x10000x16 : 0 < S1x10000x16.numel
  shapeCasts_S1x10000x16_S1x10000x16 : S1x10000x16.ShapeCasts S1x10000x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  shapeCasts_S10000x16_S1x10000x16 : S10000x16.ShapeCasts S1x10000x16
  reduces_S1x10000x16_S1x10000 : S1x10000x16.Reduces [2] S1x10000
  shapeCasts_S1x10000_S1x10000x1 : S1x10000.ShapeCasts S1x10000x1
  broadcasts_S1x10000x1_S1x10000x16 : S1x10000x1.Broadcasts S1x10000x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  shapeCasts_S10000x1_S1x10000x1 : S10000x1.ShapeCasts S1x10000x1
  shapeCasts_S64x10000x16_S64x160000 : S64x10000x16.ShapeCasts S64x160000
  bcast_S_S100000x64 : S_.BroadcastsInDim S100000x64 (![] : Fin 0 → Fin S100000x64.rank)
  transposes_S100000x64_S64x100000_1_0 : S100000x64.Transposes [1, 0] S64x100000
  inb_S16x100000_S16x100000_0_0 : ∀ a, (![0, 0] : Fin 2 → Nat) a + S16x100000.size a ≤ S16x100000.size a
  h_S16x100000 : 0 < S16x100000.numel
  shapeCasts_S16x100000_S16x100000 : S16x100000.ShapeCasts S16x100000
  inb_S100000_S100000_0 : ∀ a, (![0] : Fin 1 → Nat) a + S100000.size a ≤ S100000.size a
  h_S100000 : 0 < S100000.numel
  shapeCasts_S100000_S1x100000 : S100000.ShapeCasts S1x100000
  broadcasts_S1x100000_S16x100000 : S1x100000.Broadcasts S16x100000
  gather_S64x100000_S1600000x1_S64x1600000_0_1_n_n_1_1_641_wf : GatherDims.WF S64x100000 S1600000x1 S64x1600000 [0] [1] [] [1] [] 1 ![64, 1]
  scatter_S160000x64_S1600000x1_S1600000x64_1_0_0_1_wf : ScatterDims.WF S160000x64 S1600000x1 S1600000x64 [1] [0] [0] 1
  gather_S64x160000_S1600000x1_S64x1600000_0_1_n_n_1_1_641_wf : GatherDims.WF S64x160000 S1600000x1 S64x1600000 [0] [1] [] [1] [] 1 ![64, 1]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x16.size a ≤ S64x10000x16.size a
  hwx0_0 : ∀ i : grid0.Coords, EltTy.bits .f32 = 32 ∨ (Rect.block (s := S64x10000x16) S1x10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S10000x16.size a
  hwx0_1 : ∀ i : grid0.Coords, EltTy.bits .f32 = 32 ∨ (Rect.block (s := S10000x16) S10000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S10000x1.size a
  hwx0_2 : ∀ i : grid0.Coords, EltTy.bits .f32 = 32 ∨ (Rect.block (s := S10000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S10000x1.size a
  hwx0_3 : ∀ i : grid0.Coords, EltTy.bits .f32 = 32 ∨ (Rect.block (s := S10000x1) S10000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x16.size a ≤ S10000x16.size a
  hwx0_4 : ∀ i : grid0.Coords, EltTy.bits .f32 = 32 ∨ (Rect.block (s := S10000x16) S10000x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x10000x16.size a ≤ S64x10000x16.size a
  hwx0_5 : ∀ i : grid0.Coords, EltTy.bits .f32 = 32 ∨ (Rect.block (s := S64x10000x16) S1x10000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x100000.size a ≤ S64x100000.size a
  hwx1_0 : ∀ i : grid1.Coords, EltTy.bits .f32 = 32 ∨ (Rect.block (s := S64x100000) S16x100000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S100000.size a ≤ S100000.size a
  hwx1_1 : ∀ i : grid1.Coords, EltTy.bits .f32 = 32 ∨ (Rect.block (s := S100000) S100000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x100000.size a ≤ S64x100000.size a
  hwx1_2 : ∀ i : grid1.Coords, EltTy.bits .f32 = 32 ∨ (Rect.block (s := S64x100000) S16x100000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x100000.size a ≤ S64x100000.size a
  hwx1_3 : ∀ i : grid1.Coords, EltTy.bits .f32 = 32 ∨ (Rect.block (s := S64x100000) S16x100000.size (cc1_transform_3 i) (hinb1_3 i)).WholeWords (EltTy.packing .f32)

variable [Facts₀]

def gather_S64x100000_S1600000x1_S64x1600000_0_1_n_n_1_1_641 : GatherDims S64x100000 S1600000x1 S64x1600000 where
  offsetDims := [0]
  collapsedSliceDims := [1]
  operandBatchingDims := []
  startIndicesBatchingDims := []
  startIndexMap := [1]
  indexVectorDim := 1
  sliceSizes := ![64, 1]
  wf := gather_S64x100000_S1600000x1_S64x1600000_0_1_n_n_1_1_641_wf
def scatter_S160000x64_S1600000x1_S1600000x64_1_0_0_1 : ScatterDims S160000x64 S1600000x1 S1600000x64 where
  updateWindowDims := [1]
  insertedWindowDims := [0]
  scatterDimsToOperandDims := [0]
  indexVectorDim := 1
  wf := scatter_S160000x64_S1600000x1_S1600000x64_1_0_0_1_wf
def gather_S64x160000_S1600000x1_S64x1600000_0_1_n_n_1_1_641 : GatherDims S64x160000 S1600000x1 S64x1600000 where
  offsetDims := [0]
  collapsedSliceDims := [1]
  operandBatchingDims := []
  startIndicesBatchingDims := []
  startIndexMap := [1]
  indexVectorDim := 1
  sliceSizes := ![64, 1]
  wf := gather_S64x160000_S1600000x1_S64x1600000_0_1_n_n_1_1_641_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v15) S1x10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S10000x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S10000x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S10000x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x10000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S16x100000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S100000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S16x100000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S16x100000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x100000 : Shape := ⟨2, ![64, 100000]⟩
abbrev S1600000 : Shape := ⟨1, ![1600000]⟩
abbrev S160000 : Shape := ⟨1, ![160000]⟩
abbrev S100000 : Shape := ⟨1, ![100000]⟩
abbrev S10000 : Shape := ⟨1, ![10000]⟩
abbrev S_ : Shape := ⟨0, ![]⟩
abbrev S1600000x1 : Shape := ⟨2, ![1600000, 1]⟩
abbrev S64x1600000 : Shape := ⟨2, ![64, 1600000]⟩
abbrev S1x1600000 : Shape := ⟨2, ![1, 1600000]⟩
abbrev S1600000x64 : Shape := ⟨2, ![1600000, 64]⟩
abbrev S160000x64 : Shape := ⟨2, ![160000, 64]⟩
abbrev S64x160000 : Shape := ⟨2, ![64, 160000]⟩
abbrev S1x160000 : Shape := ⟨2, ![1, 160000]⟩
abbrev S64x10000x16 : Shape := ⟨3, ![64, 10000, 16]⟩
abbrev S64x10000 : Shape := ⟨2, ![64, 10000]⟩
abbrev S64x10000x1 : Shape := ⟨3, ![64, 10000, 1]⟩
abbrev S1x10000x1 : Shape := ⟨3, ![1, 10000, 1]⟩
abbrev S100000x64 : Shape := ⟨2, ![100000, 64]⟩
abbrev S1x100000 : Shape := ⟨2, ![1, 100000]⟩

abbrev nBuf : Space → Nat
  | .hbm => 119
  | .vmem => 0
  | .smem => 0
  | _ => 0

abbrev bufTy : (tb : Table) → Fin (tcTables nBuf tb) → BufTy
  | .hbm, ⟨0, _⟩ => ⟨S64x100000, .f32⟩
  | .hbm, ⟨1, _⟩ => ⟨S1600000, .f32⟩
  | .hbm, ⟨2, _⟩ => ⟨S160000, .f32⟩
  | .hbm, ⟨3, _⟩ => ⟨S1600000, .f32⟩
  | .hbm, ⟨4, _⟩ => ⟨S100000, .f32⟩
  | .hbm, ⟨5, _⟩ => ⟨S10000, .f32⟩
  | .hbm, ⟨6, _⟩ => ⟨S10000, .f32⟩
  | .hbm, ⟨7, _⟩ => ⟨S160000, .f32⟩
  | .hbm, ⟨8, _⟩ => ⟨S1600000, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S64x1600000, .f32⟩
  | .hbm, ⟨21, _⟩ => ⟨S1x1600000, .f32⟩
  | .hbm, ⟨22, _⟩ => ⟨S64x1600000, .f32⟩
  | .hbm, ⟨23, _⟩ => ⟨S64x1600000, .f32⟩
  | .hbm, ⟨24, _⟩ => ⟨S1600000x64, .f32⟩
  | .hbm, ⟨25, _⟩ => ⟨S_, .f32⟩
  | .hbm, ⟨26, _⟩ => ⟨S160000x64, .f32⟩
  | .hbm, ⟨27, _⟩ => ⟨S1600000x1, .i32⟩
  | .hbm, ⟨28, _⟩ => ⟨S160000x64, .f32⟩
  | .hbm, ⟨29, _⟩ => ⟨S64x160000, .f32⟩
  | .hbm, ⟨30, _⟩ => ⟨S1x160000, .f32⟩
  | .hbm, ⟨31, _⟩ => ⟨S64x160000, .f32⟩
  | .hbm, ⟨32, _⟩ => ⟨S64x160000, .f32⟩
  | .hbm, ⟨33, _⟩ => ⟨S64x10000x16, .f32⟩
  | .hbm, ⟨34, _⟩ => ⟨S_, .f32⟩
  | .hbm, ⟨35, _⟩ => ⟨S64x10000, .f32⟩
  | .hbm, ⟨36, _⟩ => ⟨S64x10000x1, .f32⟩
  | .hbm, ⟨37, _⟩ => ⟨S_, .f32⟩
  | .hbm, ⟨38, _⟩ => ⟨S64x10000x1, .f32⟩
  | .hbm, ⟨39, _⟩ => ⟨S64x10000x1, .f32⟩
  | .hbm, ⟨40, _⟩ => ⟨S_, .i32⟩
  | .hbm, ⟨41, _⟩ => ⟨S_, .f32⟩
  | .hbm, ⟨42, _⟩ => ⟨S64x10000, .f32⟩
  | .hbm, ⟨43, _⟩ => ⟨S64x10000x1, .f32⟩
  | .hbm, ⟨44, _⟩ => ⟨S_, .f32⟩
  | .hbm, ⟨45, _⟩ => ⟨S64x10000x1, .f32⟩
  | .hbm, ⟨46, _⟩ => ⟨S64x10000x1, .f32⟩
  | .hbm, ⟨47, _⟩ => ⟨S64x10000x16, .f32⟩
  | .hbm, ⟨48, _⟩ => ⟨S64x10000x16, .f32⟩
  | .hbm, ⟨49, _⟩ => ⟨S64x10000x16, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S64x10000, .f32⟩
  | .hbm, ⟨55, _⟩ => ⟨S64x10000x1, .f32⟩
  | .hbm, ⟨56, _⟩ => ⟨S64x10000x1, .f32⟩
  | .hbm, ⟨57, _⟩ => ⟨S64x10000x1, .f32⟩
  | .hbm, ⟨58, _⟩ => ⟨S_, .f32⟩
  | .hbm, ⟨59, _⟩ => ⟨S_, .i1⟩
  | .hbm, ⟨60, _⟩ => ⟨S_, .f32⟩
  | .hbm, ⟨61, _⟩ => ⟨S_, .f32⟩
  | .hbm, ⟨62, _⟩ => ⟨S64x10000x1, .f32⟩
  | .hbm, ⟨63, _⟩ => ⟨S64x10000x1, .f32⟩
  | .hbm, ⟨64, _⟩ => ⟨S64x10000x16, .f32⟩
  | .hbm, ⟨65, _⟩ => ⟨S64x10000x16, .f32⟩
  | .hbm, ⟨66, _⟩ => ⟨S_, .f32⟩
  | .hbm, ⟨67, _⟩ => ⟨S64x10000x1, .f32⟩
  | .hbm, ⟨68, _⟩ => ⟨S64x10000x1, .f32⟩
  | .hbm, ⟨69, _⟩ => ⟨S64x10000x1, .f32⟩
  | .hbm, ⟨70, _⟩ => ⟨S64x10000x16, .f32⟩
  | .hbm, ⟨71, _⟩ => ⟨S64x10000x16, .f32⟩
  | .hbm, ⟨72, _⟩ => ⟨S1x10000x1, .f32⟩
  | .hbm, ⟨73, _⟩ => ⟨S64x10000x16, .f32⟩
  | .hbm, ⟨74, _⟩ => ⟨S64x10000x16, .f32⟩
  | .hbm, ⟨75, _⟩ => ⟨S1x10000x1, .f32⟩
  | .hbm, ⟨76, _⟩ => ⟨S64x10000x16, .f32⟩
  | .hbm, ⟨77, _⟩ => ⟨S64x10000x16, .f32⟩
  | .hbm, ⟨78, _⟩ => ⟨S64x160000, .f32⟩
  | .hbm, ⟨79, _⟩ => ⟨S_, .f32⟩
  | .hbm, ⟨80, _⟩ => ⟨S64x160000, .f32⟩
  | .hbm, ⟨81, _⟩ => ⟨S64x160000, .i1⟩
  | .hbm, ⟨82, _⟩ => ⟨S_, .f32⟩
  | .hbm, ⟨83, _⟩ => ⟨S64x160000, .f32⟩
  | .hbm, ⟨84, _⟩ => ⟨S64x160000, .i1⟩
  | .hbm, ⟨85, _⟩ => ⟨S_, .f32⟩
  | .hbm, ⟨86, _⟩ => ⟨S_, .f32⟩
  | .hbm, ⟨87, _⟩ => ⟨S64x160000, .f32⟩
  | .hbm, ⟨88, _⟩ => ⟨S64x160000, .f32⟩
  | .hbm, ⟨89, _⟩ => ⟨S64x160000, .f32⟩
  | .hbm, ⟨90, _⟩ => ⟨S_, .f32⟩
  | .hbm, ⟨91, _⟩ => ⟨S64x160000, .f32⟩
  | .hbm, ⟨92, _⟩ => ⟨S64x160000, .f32⟩
  | .hbm, ⟨93, _⟩ => ⟨S64x160000, .f32⟩
  | .hbm, ⟨94, _⟩ => ⟨S1x160000, .f32⟩
  | .hbm, ⟨95, _⟩ => ⟨S64x160000, .f32⟩
  | .hbm, ⟨96, _⟩ => ⟨S64x160000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S64x1600000, .f32⟩
  | .hbm, ⟨106, _⟩ => ⟨S1x1600000, .f32⟩
  | .hbm, ⟨107, _⟩ => ⟨S64x1600000, .f32⟩
  | .hbm, ⟨108, _⟩ => ⟨S64x1600000, .f32⟩
  | .hbm, ⟨109, _⟩ => ⟨S1600000x64, .f32⟩
  | .hbm, ⟨110, _⟩ => ⟨S_, .f32⟩
  | .hbm, ⟨111, _⟩ => ⟨S100000x64, .f32⟩
  | .hbm, ⟨112, _⟩ => ⟨S1600000x1, .i32⟩
  | .hbm, ⟨113, _⟩ => ⟨S100000x64, .f32⟩
  | .hbm, ⟨114, _⟩ => ⟨S64x100000, .f32⟩
  | .hbm, ⟨115, _⟩ => ⟨S1x100000, .f32⟩
  | .hbm, ⟨116, _⟩ => ⟨S64x100000, .f32⟩
  | .hbm, ⟨117, _⟩ => ⟨S64x100000, .f32⟩
  | .hbm, ⟨118, _⟩ => ⟨S64x100000, .f32⟩
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_cst_2 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_v12 : Ref sig .tc := ⟨.hbm, 57, rfl⟩
abbrev main_call0_cst_3 : Ref sig .tc := ⟨.hbm, 58, rfl⟩
abbrev main_call0_v13 : Ref sig .tc := ⟨.hbm, 59, rfl⟩
abbrev main_call0_cst_4 : Ref sig .tc := ⟨.hbm, 60, rfl⟩
abbrev main_call0_call0_v0 : Ref sig .tc := ⟨.hbm, 61, rfl⟩
abbrev main_call0_call0_v1 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_4 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_cst_0 : Ref sig .tc := ⟨.hbm, 82, rfl⟩
abbrev main_call1_v2 : Ref sig .tc := ⟨.hbm, 83, rfl⟩
abbrev main_call1_v3 : Ref sig .tc := ⟨.hbm, 84, rfl⟩
abbrev main_call1_cst_1 : Ref sig .tc := ⟨.hbm, 85, rfl⟩
abbrev main_call1_call0_v0 : Ref sig .tc := ⟨.hbm, 86, rfl⟩
abbrev main_call1_call0_v1 : Ref sig .tc := ⟨.hbm, 87, rfl⟩
abbrev main_call1_v4 : Ref sig .tc := ⟨.hbm, 88, rfl⟩
abbrev main_call1_v5 : Ref sig .tc := ⟨.hbm, 89, rfl⟩
abbrev main_call1_cst_2 : Ref sig .tc := ⟨.hbm, 90, rfl⟩
abbrev main_call1_v6 : Ref sig .tc := ⟨.hbm, 91, rfl⟩
abbrev main_call1_v7 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_c_5 : Ref sig .tc := ⟨.hbm, 97, rfl⟩
abbrev main_v42 : Ref sig .tc := ⟨.hbm, 98, rfl⟩
abbrev main_v43 : Ref sig .tc := ⟨.hbm, 99, rfl⟩
abbrev main_c_6 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_cst_7 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000_S1x1600000_1 : S1600000.BroadcastsInDim S1x1600000 (![1] : Fin 1 → Fin S1x1600000.rank)
  bcast_S1x1600000_S64x1600000_0_1 : S1x1600000.BroadcastsInDim S64x1600000 (![0, 1] : Fin 2 → Fin S64x1600000.rank)
  transposes_S64x1600000_S1600000x64_1_0 : S64x1600000.Transposes [1, 0] S1600000x64
  bcast_S_S160000x64 : S_.BroadcastsInDim S160000x64 (![] : Fin 0 → Fin S160000x64.rank)
  transposes_S160000x64_S64x160000_1_0 : S160000x64.Transposes [1, 0] S64x160000
  bcast_S160000_S1x160000_1 : S160000.BroadcastsInDim S1x160000 (![1] : Fin 1 → Fin S1x160000.rank)
  bcast_S1x160000_S64x160000_0_1 : S1x160000.BroadcastsInDim S64x160000 (![0, 1] : Fin 2 → Fin S64x160000.rank)
  shapeCasts_S64x160000_S64x10000x16 : S64x160000.ShapeCasts S64x10000x16
  reducesTo_S64x10000x16_S64x10000_d2 : S64x10000x16.ReducesTo [2] S64x10000
  h_S_ : 0 < S_.numel
  bcast_S64x10000_S64x10000x1_0_1 : S64x10000.BroadcastsInDim S64x10000x1 (![0, 1] : Fin 2 → Fin S64x10000x1.rank)
  bcast_S_S64x10000x1 : S_.BroadcastsInDim S64x10000x1 (![] : Fin 0 → Fin S64x10000x1.rank)
  bcast_S64x10000x1_S64x10000x16_0_1_2 : S64x10000x1.BroadcastsInDim S64x10000x16 (![0, 1, 2] : Fin 3 → Fin S64x10000x16.rank)
  bcast_S10000_S1x10000x1_1 : S10000.BroadcastsInDim S1x10000x1 (![1] : Fin 1 → Fin S1x10000x1.rank)
  bcast_S1x10000x1_S64x10000x16_0_1_2 : S1x10000x1.BroadcastsInDim S64x10000x16 (![0, 1, 2] : Fin 3 → Fin S64x10000x16.rank)
  shapeCasts_S64x10000x16_S64x160000 : S64x10000x16.ShapeCasts S64x160000
  bcast_S_S64x160000 : S_.BroadcastsInDim S64x160000 (![] : Fin 0 → Fin S64x160000.rank)
  bcast_S_S100000x64 : S_.BroadcastsInDim S100000x64 (![] : Fin 0 → Fin S100000x64.rank)
  transposes_S100000x64_S64x100000_1_0 : S100000x64.Transposes [1, 0] S64x100000
  bcast_S100000_S1x100000_1 : S100000.BroadcastsInDim S1x100000 (![1] : Fin 1 → Fin S1x100000.rank)
  bcast_S1x100000_S64x100000_0_1 : S1x100000.BroadcastsInDim S64x100000 (![0, 1] : Fin 2 → Fin S64x100000.rank)
  gather_S64x100000_S1600000x1_S64x1600000_0_1_n_n_1_1_641_wf : GatherDims.WF S64x100000 S1600000x1 S64x1600000 [0] [1] [] [1] [] 1 ![64, 1]
  scatter_S160000x64_S1600000x1_S1600000x64_1_0_0_1_wf : ScatterDims.WF S160000x64 S1600000x1 S1600000x64 [1] [0] [0] 1
  gather_S64x160000_S1600000x1_S64x1600000_0_1_n_n_1_1_641_wf : GatherDims.WF S64x160000 S1600000x1 S64x1600000 [0] [1] [] [1] [] 1 ![64, 1]
  scatter_S100000x64_S1600000x1_S1600000x64_1_0_0_1_wf : ScatterDims.WF S100000x64 S1600000x1 S1600000x64 [1] [0] [0] 1

variable [Facts₀]

def gather_S64x100000_S1600000x1_S64x1600000_0_1_n_n_1_1_641 : GatherDims S64x100000 S1600000x1 S64x1600000 where
  offsetDims := [0]
  collapsedSliceDims := [1]
  operandBatchingDims := []
  startIndicesBatchingDims := []
  startIndexMap := [1]
  indexVectorDim := 1
  sliceSizes := ![64, 1]
  wf := gather_S64x100000_S1600000x1_S64x1600000_0_1_n_n_1_1_641_wf
def scatter_S160000x64_S1600000x1_S1600000x64_1_0_0_1 : ScatterDims S160000x64 S1600000x1 S1600000x64 where
  updateWindowDims := [1]
  insertedWindowDims := [0]
  scatterDimsToOperandDims := [0]
  indexVectorDim := 1
  wf := scatter_S160000x64_S1600000x1_S1600000x64_1_0_0_1_wf
def gather_S64x160000_S1600000x1_S64x1600000_0_1_n_n_1_1_641 : GatherDims S64x160000 S1600000x1 S64x1600000 where
  offsetDims := [0]
  collapsedSliceDims := [1]
  operandBatchingDims := []
  startIndicesBatchingDims := []
  startIndexMap := [1]
  indexVectorDim := 1
  sliceSizes := ![64, 1]
  wf := gather_S64x160000_S1600000x1_S64x1600000_0_1_n_n_1_1_641_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The specification both programs are read against. A sparse layer is "gather the source columns, scale by the
  edge weights, add each edge's column into its destination": `lin1` (edges to hidden units) and `lin2` (hidden
  units back to edges) are the two layers as the host operations compose them, kept as opaque chains — the
  certificate never looks inside a gather or a scatter. Between them sits the per-node normalisation: a row of 16
  channels is centred, scaled by the reciprocal root of its variance plus epsilon, mapped by gamma, beta, then by
  ELU, then masked. `mid` is that chain as whole-array operations (the form the reference computes it in), and
  `cell` is the same thing for ONE row of 16 extended reals, the form both programs are compared in.
-/
import proofs.«103248_j69870527971810_2_alg».proof.Proof.Gen.ReferenceIdeal
import Idealize.ShloMosaic.PureOps.Ideal

noncomputable section

namespace Cert.Spec

open Cert.ReferenceIdeal Cert.ReferenceIdeal.Gen Idealize.ShloMosaic Idealize.ShloMosaic.TcCoe

variable {F : FTy → Type} [FloatOps F]

/-- An index vector with negative entries wrapped once by the axis length `n`, as a column of start indices. -/
def wrapIdx (n : BitVec 32) (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 n))) src)

/-- The edge weights laid along every batch row. -/
def wRows (w : FVec F S1600000 .f32) : FVec F S64x1600000 .f32 :=
  broadcastInDim S64x1600000 ![0, 1] bcast_S1x1600000_S64x1600000_0_1
    (broadcastInDim S1x1600000 ![1] bcast_S1600000_S1x1600000_1 w)

/-- First sparse layer: column `src e` of `x` times `w e`, added into column `dst e` of a zero [64,160000] array. -/
def lin1 (x : FVec F S64x100000 .f32) (w : FVec F S1600000 .f32) (src dst : IVec S1600000 32) :
    FVec F S64x160000 .f32 :=
  transpose S64x160000 [1, 0]
    (Host.scatterAdd scatter_S160000x64_S1600000x1_S1600000x64_1_0_0_1
      (broadcastInDim S160000x64 ![] bcast_S_S160000x64 (constant S_ .f32 0x00000000#32))
      (broadcastInDim S1600000x1 ![0] bcast_S1600000_S1600000x1_0 dst)
      (transpose S1600000x64 [1, 0]
        (mulf (Host.gather gather_S64x100000_S1600000x1_S64x1600000_0_1_n_n_1_1_641 x (wrapIdx 100000#32 src)) (wRows w))
        transposes_S64x1600000_S1600000x64_1_0))
    transposes_S160000x64_S64x160000_1_0

/-- Second sparse layer: column `src e` of `h` times `w e`, added into column `dst e` of a zero [64,100000] array. -/
def lin2 (h : FVec F S64x160000 .f32) (w : FVec F S1600000 .f32) (src dst : IVec S1600000 32) :
    FVec F S64x100000 .f32 :=
  transpose S64x100000 [1, 0]
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (transpose S1600000x64 [1, 0]
        (mulf (Host.gather gather_S64x160000_S1600000x1_S64x1600000_0_1_n_n_1_1_641 h (wrapIdx 160000#32 src)) (wRows w))
        transposes_S64x1600000_S1600000x64_1_0))
    transposes_S100000x64_S64x100000_1_0

/-- The hidden activations with their bias, grouped [batch, node, channel]. -/
def hb (H : FVec F S64x160000 .f32) (b_in : FVec F S160000 .f32) : FVec F S64x10000x16 .f32 :=
  shapeCast S64x10000x16
    (addf H (broadcastInDim S64x160000 ![0, 1] bcast_S1x160000_S64x160000_0_1
      (broadcastInDim S1x160000 ![1] bcast_S160000_S1x160000_1 b_in)))
    shapeCasts_S64x160000_S64x10000x16

/-- A node's channel sum from zero, kept as a unit last axis. -/
def sum3 (h : FVec F S64x10000x16 .f32) : FVec F S64x10000x1 .f32 :=
  broadcastInDim S64x10000x1 ![0, 1] bcast_S64x10000_S64x10000x1_0_1
    (Host.reduceAdd h (constant S_ .f32 0x00000000#32) reducesTo_S64x10000x16_S64x10000_d2 h_S_)

/-- A node's channel mean: the sum over 16. -/
def mean3 (h : FVec F S64x10000x16 .f32) : FVec F S64x10000x1 .f32 :=
  Host.divf (sum3 h) (broadcastInDim S64x10000x1 ![] bcast_S_S64x10000x1 (constant S_ .f32 0x41800000#32))

/-- A row minus its mean. -/
def centred (h : FVec F S64x10000x16 .f32) : FVec F S64x10000x16 .f32 :=
  subf h (broadcastInDim S64x10000x16 ![0, 1, 2] bcast_S64x10000x1_S64x10000x16_0_1_2 (mean3 h))

/-- The divisor of the variance: 16 less the (zero) degrees-of-freedom correction. -/
def nrm : FVec F S_ .f32 :=
  subf (constant S_ .f32 0x41800000#32) (sitofp .f32 (constantI S_ 32 0#32))

/-- A node's channel variance, with the library's guard that the divisor be positive. -/
def var3 (h : FVec F S64x10000x16 .f32) : FVec F S64x10000x1 .f32 :=
  select (broadcastInDim S64x10000x1 ![] bcast_S_S64x10000x1 (cmpf .ogt (nrm (F := F)) (constant S_ .f32 0x00000000#32)))
    (Host.divf (sum3 (mulf (centred h) (centred h)))
      (broadcastInDim S64x10000x1 ![] bcast_S_S64x10000x1 (nrm (F := F))))
    (broadcastInDim S64x10000x1 ![] bcast_S_S64x10000x1 (id (constant S_ .f32 0x7FC00000#32)))

/-- gamma or beta laid along batch and channel. -/
def perNode (g : FVec F S10000 .f32) : FVec F S64x10000x16 .f32 :=
  broadcastInDim S64x10000x16 ![0, 1, 2] bcast_S1x10000x1_S64x10000x16_0_1_2
    (broadcastInDim S1x10000x1 ![1] bcast_S10000_S1x10000x1_1 g)

/-- The normalised, affinely mapped activations. -/
def normed (h : FVec F S64x10000x16 .f32) (gamma beta : FVec F S10000 .f32) : FVec F S64x10000x16 .f32 :=
  addf (mulf (perNode gamma)
      (mulf (centred h)
        (broadcastInDim S64x10000x16 ![0, 1, 2] bcast_S64x10000x1_S64x10000x16_0_1_2
          (Host.rsqrt (addf (var3 h)
            (broadcastInDim S64x10000x1 ![] bcast_S_S64x10000x1 (constant S_ .f32 0x3727C5AC#32)))))))
    (perNode beta)

/-- ELU as the library spells it: `z` where positive, else `1 · expm1` of `z` made safe (zero where positive). -/
def elu (z : FVec F S64x160000 .f32) : FVec F S64x160000 .f32 :=
  select (cmpf .ogt z (broadcastInDim S64x160000 ![] bcast_S_S64x160000 (constant S_ .f32 0x00000000#32))) z
    (mulf (broadcastInDim S64x160000 ![] bcast_S_S64x160000 (constant S_ .f32 0x3F800000#32))
      (Host.expm1
        (select (cmpf .ogt z (broadcastInDim S64x160000 ![] bcast_S_S64x160000 (constant S_ .f32 0x00000000#32)))
          (broadcastInDim S64x160000 ![] bcast_S_S64x160000 (id (constant S_ .f32 0x00000000#32))) z)))

/-- The whole middle: bias, group normalisation, ELU, mask, on [64,160000]. -/
def mid (H : FVec F S64x160000 .f32) (b_in : FVec F S160000 .f32) (gamma beta : FVec F S10000 .f32)
    (mask : FVec F S160000 .f32) : FVec F S64x160000 .f32 :=
  mulf (elu (shapeCast S64x160000 (normed (hb H b_in) gamma beta) shapeCasts_S64x10000x16_S64x160000))
    (broadcastInDim S64x160000 ![0, 1] bcast_S1x160000_S64x160000_0_1
      (broadcastInDim S1x160000 ![1] bcast_S160000_S1x160000_1 mask))

/-- The last step: output bias along every batch row, then the residual. -/
def fin (y : FVec F S64x100000 .f32) (b_out : FVec F S100000 .f32) (x : FVec F S64x100000 .f32) :
    FVec F S64x100000 .f32 :=
  addf (addf y (broadcastInDim S64x100000 ![0, 1] bcast_S1x100000_S64x100000_0_1
    (broadcastInDim S1x100000 ![1] bcast_S100000_S1x100000_1 b_out))) x

/-- The result as one function of the twelve arguments. -/
def out (x : FVec F S64x100000 .f32) (w_in : FVec F S1600000 .f32) (b_in : FVec F S160000 .f32)
    (w_out : FVec F S1600000 .f32) (b_out : FVec F S100000 .f32) (gamma beta : FVec F S10000 .f32)
    (mask : FVec F S160000 .f32) (s1 d1 s2 d2 : IVec S1600000 32) : FVec F S64x100000 .f32 :=
  fin (lin2 (mid (lin1 x w_in s1 d1) b_in gamma beta mask) w_out s2 d2) b_out x

/-- Hidden unit `16·n + c`: channel `c` of node `n`, as a column of the flat [64,160000] layout. -/
def hcol (n : Fin 10000) (c : Fin 16) : Fin 160000 := ⟨n.val * 16 + c.val, by omega⟩

/-! ## One row of sixteen channels, on the extended reals -/

/-- The literal 16 both programs divide by. -/
def c16 : EReal := Ideal.ofBits .f32 0x41800000#32
/-- The epsilon both programs add to the variance. -/
def ceps : EReal := Ideal.ofBits .f32 0x3727C5AC#32

/-- The mean of a row. -/
def rmean (r : Fin 16 → EReal) : EReal := Ideal.div (∑ k, r k) c16
/-- The variance of a row: the mean of the squared deviations. -/
def rvar (r : Fin 16 → EReal) : EReal := Ideal.div (∑ k, (r k - rmean r) * (r k - rmean r)) c16
/-- A row's channel `c` after normalisation and the affine map. -/
def rnorm (r : Fin 16 → EReal) (g be : EReal) (c : Fin 16) : EReal :=
  g * ((r c - rmean r) * Ideal.rsqrt (rvar r + ceps)) + be
/-- ELU on the extended reals in the kernel's spelling: `z` where `0 < z`, else `exp z − 1`. -/
def relu1 (z : EReal) : EReal := Scalar.select (Ideal.cmp .ogt z 0) z (Ideal.exp z - 1)
/-- One output cell: the row's channel `c`, normalised, mapped, through ELU, masked. -/
def cell (r : Fin 16 → EReal) (g be mk : EReal) (c : Fin 16) : EReal :=
  relu1 (rnorm r g be c) * mk

end Cert.Spec

end
-- ==== Proof.Reg0.lean ====
/-
  What the first region leaves in its output array. The region walks the 64 batch rows one at a time; at row
  `t` the body stores, for node `n` and channel `c`, the normalised, ELU-mapped, masked cell of the node's 16
  channels `h[t, n, ·] + b_in[n, ·]` (with that node's gamma and beta and the channel's mask). Block `t` of the
  [64,10000,16] arrays is row `t`; the four constant operands' blocks are their whole arrays; the 64 blocks
  cover the output, so it ends as one function of the arrays the region found.
-/
import proofs.«103248_j69870527971810_2_alg».proof.Proof.Gen.KernelIdeal.Frame
import proofs.«103248_j69870527971810_2_alg».proof.Proof.Spec
import Idealize.ShloMosaic.Lib.ValueIdx
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.ShloMosaic.ValueIdx
open Idealize.ShloMosaic.Pipeline (Dat Cfg Window)

/-- The first region's result at (batch b, node n, channel c): the cell of the node's biased row. -/
def g0 (h : S64x10000x16.Idx → EReal) (bi : S10000x16.Idx → EReal) (ga be : S10000x1.Idx → EReal)
    (mk : S10000x16.Idx → EReal) (b : Fin 64) (n : Fin 10000) (c : Fin 16) : EReal :=
  Cert.Spec.cell (fun k => h (ix3 b n k) + bi (ix2 n k)) (ga (ix2 n (0 : Fin 1))) (be (ix2 n (0 : Fin 1))) (mk (ix2 n c)) c

/-- The same as a whole array. -/
def G0 (h : S64x10000x16.Idx → EReal) (bi : S10000x16.Idx → EReal) (ga be : S10000x1.Idx → EReal)
    (mk : S10000x16.Idx → EReal) : S64x10000x16.Idx → EReal :=
  fun i => g0 h bi ga be mk (⟨(i 0).val, (i 0).isLt⟩ : Fin 64) (⟨(i 1).val, (i 1).isLt⟩ : Fin 10000) (⟨(i 2).val, (i 2).isLt⟩ : Fin 16)

/-- Where the blocks sit: the input and output row windows move together down the batch, the four constant windows stay. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

variable (V : (c : Dev nD) → (b : Ref sig .tc) → Buf (Elt Ideal) ((c : Thread nD τ).loc b))

/-- What row `t` writes back is block `t` of `G0` of the arrays as the region finds them. -/
theorem flushed0_eq
    (hout : ∀ (x0 : Vec Ideal S1x10000x16 .f32) (x1 : Vec Ideal S10000x16 .f32) (x2 x3 : Vec Ideal S10000x1 .f32)
      (x4 : Vec Ideal S10000x16 .f32) (n : Fin 10000) (c : Fin 16),
      out0_5 (F := Ideal) x0 x1 x2 x3 x4 (ix3 (0 : Fin 1) n c)
        = Cert.Spec.cell (fun k => x0 (ix3 (0 : Fin 1) n k) + x1 (ix2 n k)) (x2 (ix2 n (0 : Fin 1))) (x3 (ix2 n (0 : Fin 1))) (x4 (ix2 n c)) c)
    (c : Dev nD) (t : Fin cfg0.N) :
    (dat0 (F := Ideal) V c).flushed 5 t
      = ((cfg0.win 5).blk t).view.read (Elt Ideal)
          (G0 (V c main_v15) (V c main_v16) (V c main_v17) (V c main_v18) (V c main_v19)) := by
  show (cfg0.win 5).cut (grid0.coords t) ((dat0 V c).after 5 t) = _
  rw [after0_5]
  obtain ⟨a0, a1, a2, b0, b1, c0, c1, d0, d1, f0, f1, g0', g1, g2⟩ := idx_facts0 t
  have ht : t.val < 64 := lt_of_lt_of_eq t.isLt N_0
  funext y
  show out0_5 (iblk0 V c 0 t) (iblk0 V c 1 t) (iblk0 V c 2 t) (iblk0 V c 3 t) (iblk0 V c 4 t) y
    = G0 (V c main_v15) (V c main_v16) (V c main_v17) (V c main_v18) (V c main_v19) (((cfg0.win 5).blk t).view.emb y)
  obtain ⟨a, n, ch, rfl⟩ : ∃ (a : Fin 1) (n : Fin 10000) (ch : Fin 16), (y : S1x10000x16.Idx) = ix3 a n ch :=
    ⟨y 0, y 1, y 2, eq_ix3 y⟩
  obtain rfl : a = 0 := Subsingleton.elim a 0
  refine (hout (iblk0 V c 0 t) (iblk0 V c 1 t) (iblk0 V c 2 t) (iblk0 V c 3 t) (iblk0 V c 4 t) n ch).trans ?_
  have hb : (⟨(((cfg0.win 5).blk t).view.emb (ix3 (0 : Fin 1) n ch) 0).val, (((cfg0.win 5).blk t).view.emb (ix3 (0 : Fin 1) n ch) 0).isLt⟩ : Fin 64) = ⟨t.val, ht⟩ := by
    apply Fin.ext
    show win0_5.index t (0 : Fin 3) * 1 + 1 * 0 = t.val
    omega
  have hn : (⟨(((cfg0.win 5).blk t).view.emb (ix3 (0 : Fin 1) n ch) 1).val, (((cfg0.win 5).blk t).view.emb (ix3 (0 : Fin 1) n ch) 1).isLt⟩ : Fin 10000) = n := by
    apply Fin.ext
    show win0_5.index t (1 : Fin 3) * 10000 + 1 * n.val = n.val
    omega
  have hc : (⟨(((cfg0.win 5).blk t).view.emb (ix3 (0 : Fin 1) n ch) 2).val, (((cfg0.win 5).blk t).view.emb (ix3 (0 : Fin 1) n ch) 2).isLt⟩ : Fin 16) = ch := by
    apply Fin.ext
    show win0_5.index t (2 : Fin 3) * 16 + 1 * ch.val = ch.val
    omega
  have e0 : ∀ k : Fin 16, ((cfg0.win 0).blk t).view.emb (ix3 (0 : Fin 1) n k) = ix3 (⟨t.val, ht⟩ : Fin 64) n k := by
    intro k; funext a; apply Fin.ext
    match a with
    | ⟨0, _⟩ => show win0_0.index t (0 : Fin 3) * 1 + 1 * 0 = t.val; omega
    | ⟨1, _⟩ => show win0_0.index t (1 : Fin 3) * 10000 + 1 * n.val = n.val; omega
    | ⟨2, _⟩ => show win0_0.index t (2 : Fin 3) * 16 + 1 * k.val = k.val; omega
  have e1 : ∀ k : Fin 16, ((cfg0.win 1).blk t).view.emb (ix2 n k) = ix2 n k := by
    intro k; funext a; apply Fin.ext
    match a with
    | ⟨0, _⟩ => show win0_1.index t (0 : Fin 2) * 10000 + 1 * n.val = n.val; omega
    | ⟨1, _⟩ => show win0_1.index t (1 : Fin 2) * 16 + 1 * k.val = k.val; omega
  have e2 : ((cfg0.win 2).blk t).view.emb (ix2 n (0 : Fin 1)) = ix2 n (0 : Fin 1) := by
    funext a; apply Fin.ext
    match a with
    | ⟨0, _⟩ => show win0_2.index t (0 : Fin 2) * 10000 + 1 * n.val = n.val; omega
    | ⟨1, _⟩ => show win0_2.index t (1 : Fin 2) * 1 + 1 * 0 = 0; omega
  have e3 : ((cfg0.win 3).blk t).view.emb (ix2 n (0 : Fin 1)) = ix2 n (0 : Fin 1) := by
    funext a; apply Fin.ext
    match a with
    | ⟨0, _⟩ => show win0_3.index t (0 : Fin 2) * 10000 + 1 * n.val = n.val; omega
    | ⟨1, _⟩ => show win0_3.index t (1 : Fin 2) * 1 + 1 * 0 = 0; omega
  have e4 : ((cfg0.win 4).blk t).view.emb (ix2 n ch) = ix2 n ch := by
    funext a; apply Fin.ext
    match a with
    | ⟨0, _⟩ => show win0_4.index t (0 : Fin 2) * 10000 + 1 * n.val = n.val; omega
    | ⟨1, _⟩ => show win0_4.index t (1 : Fin 2) * 16 + 1 * ch.val = ch.val; omega
  have key : ∀ (A15 : S64x10000x16.Idx → EReal) (A16 : S10000x16.Idx → EReal) (A17 A18 : S10000x1.Idx → EReal)
      (A19 : S10000x16.Idx → EReal),
      Cert.Spec.cell (fun k => A15 (((cfg0.win 0).blk t).view.emb (ix3 (0 : Fin 1) n k)) + A16 (((cfg0.win 1).blk t).view.emb (ix2 n k)))
        (A17 (((cfg0.win 2).blk t).view.emb (ix2 n (0 : Fin 1)))) (A18 (((cfg0.win 3).blk t).view.emb (ix2 n (0 : Fin 1))))
        (A19 (((cfg0.win 4).blk t).view.emb (ix2 n ch))) ch
      = g0 A15 A16 A17 A18 A19
        (⟨(((cfg0.win 5).blk t).view.emb (ix3 (0 : Fin 1) n ch) 0).val, (((cfg0.win 5).blk t).view.emb (ix3 (0 : Fin 1) n ch) 0).isLt⟩ : Fin 64)
        (⟨(((cfg0.win 5).blk t).view.emb (ix3 (0 : Fin 1) n ch) 1).val, (((cfg0.win 5).blk t).view.emb (ix3 (0 : Fin 1) n ch) 1).isLt⟩ : Fin 10000)
        (⟨(((cfg0.win 5).blk t).view.emb (ix3 (0 : Fin 1) n ch) 2).val, (((cfg0.win 5).blk t).view.emb (ix3 (0 : Fin 1) n ch) 2).isLt⟩ : Fin 16) := by
    intro A15 A16 A17 A18 A19
    rw [hb, hn, hc]
    unfold g0
    simp only [e0, e1, e2, e3, e4]
  exact key (V c main_v15) (V c main_v16) (V c main_v17) (V c main_v18) (V c main_v19)

/-- An index of the output array is in block `t` iff each coordinate is in the block's range on its axis. -/
theorem mem_blk0 (t : Fin cfg0.N) (i : S64x10000x16.Idx) :
    i ∈ ((cfg0.win 5).blk t).view.set ↔ ∀ a : Fin 3, win0_5.index t a * S1x10000x16.size a ≤ (i a).val
      ∧ (i a).val < win0_5.index t a * S1x10000x16.size a + S1x10000x16.size a := by
  show i ∈ ((View.whole main_v20).slice (win0_5.rect t)).set ↔ _
  rw [View.set_slice_whole, Rect.mem_set_unit]
  exact Iff.rfl

/-- Batch row `b` is block `b`: the 64 blocks cover the array. -/
theorem cover0 (i : S64x10000x16.Idx) :
    ∃ t : Fin cfg0.N, (cfg0.win 5).flush t = true ∧ i ∈ ((cfg0.win 5).blk t).view.set := by
  have hi0 : (i 0).val < 64 := (i 0).isLt
  have hi1 : (i 1).val < 10000 := (i 1).isLt
  have hi2 : (i 2).val < 16 := (i 2).isLt
  have hN : cfg0.N = 64 := N_0
  obtain ⟨t, ht⟩ : ∃ t : Fin cfg0.N, t.val = (i 0).val := ⟨⟨(i 0).val, by rw [hN]; omega⟩, rfl⟩
  obtain ⟨-, -, -, -, -, -, -, -, -, -, -, g0', g1, g2⟩ := idx_facts0 t
  refine ⟨t, flush0_5 t, ?_⟩
  rw [mem_blk0]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 10000 ≤ (i 1).val ∧ (i 1).val < win0_5.index t (1 : Fin 3) * 10000 + 10000; omega
  | ⟨2, _⟩ => show win0_5.index t (2 : Fin 3) * 16 ≤ (i 2).val ∧ (i 2).val < win0_5.index t (2 : Fin 3) * 16 + 16; omega

/-- The output array after the region: `G0` of the arrays the region found. -/
theorem arr0
    (hout : ∀ (x0 : Vec Ideal S1x10000x16 .f32) (x1 : Vec Ideal S10000x16 .f32) (x2 x3 : Vec Ideal S10000x1 .f32)
      (x4 : Vec Ideal S10000x16 .f32) (n : Fin 10000) (c : Fin 16),
      out0_5 (F := Ideal) x0 x1 x2 x3 x4 (ix3 (0 : Fin 1) n c)
        = Cert.Spec.cell (fun k => x0 (ix3 (0 : Fin 1) n k) + x1 (ix2 n k)) (x2 (ix2 n (0 : Fin 1))) (x3 (ix2 n (0 : Fin 1))) (x4 (ix2 n c)) c)
    (c : Dev nD) :
    (dat0 (F := Ideal) V c).arrAt 5 cfg0.N = G0 (V c main_v15) (V c main_v16) (V c main_v17) (V c main_v18) (V c main_v19) :=
  (dat0 (F := Ideal) V c).arrAt_eq_of_cover 5 (G0 (V c main_v15) (V c main_v16) (V c main_v17) (V c main_v18) (V c main_v19))
    (fun t _ => flushed0_eq V hout c t) cover0

end Cert.KernelIdeal.Val

end
-- ==== Proof.Reg1.lean ====
/-
  What the second region leaves in its output array. The region walks the 64 batch rows in four blocks of 16;
  at block `t` the body stores, for row `r` of the block and edge `e`, the entry `y + b_out[e] + x` of the three
  input blocks at the same place. Block `t` of each [64,100000] array is rows `16 t … 16 t + 15`, the bias block is
  the whole bias vector, and the four blocks cover the array, so the array ends as one function of the arrays
  the region found: entry by entry `(y + b_out) + x`.
-/
import proofs.«103248_j69870527971810_2_alg».proof.Proof.Gen.KernelIdeal.Frame
import Idealize.ShloMosaic.Lib.ValueIdx
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.ShloMosaic.ValueIdx
open Idealize.ShloMosaic.Pipeline (Dat Cfg Window)

/-- The second region's result: output bias along the batch, then the residual. -/
def G1 (y : S64x100000.Idx → EReal) (b : S100000.Idx → EReal) (x : S64x100000.Idx → EReal) : S64x100000.Idx → EReal :=
  fun i => (y i + b (ix1 (⟨(i 1).val, (i 1).isLt⟩ : Fin 100000))) + x i

/-- Where the blocks sit: the three batch-tiled windows move together down the rows, the bias window stays. -/
theorem idx_facts1 : ∀ t : Fin cfg1.N,
    win1_0.index t (0 : Fin 2) = t.val ∧ win1_0.index t (1 : Fin 2) = 0
    ∧ win1_1.index t (0 : Fin 1) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What block `t` writes back is block `t` of `G1` of the arrays as the region finds them. -/
theorem flushed1_eq
    (hout : ∀ (x0 : Vec Ideal S16x100000 .f32) (x1 : Vec Ideal S100000 .f32) (x2 : Vec Ideal S16x100000 .f32)
      (r : Fin 16) (e : Fin 100000), out1_3 (F := Ideal) x0 x1 x2 (ix2 r e) = (x0 (ix2 r e) + x1 (ix1 e)) + x2 (ix2 r e))
    (c : Dev nD) (t : Fin cfg1.N) :
    (dat1 (F := Ideal) V c).flushed 3 t
      = ((cfg1.win 3).blk t).view.read (Elt Ideal) (G1 (V c main_v36) (V c main_arg4) (V c main_arg0)) := by
  show (cfg1.win 3).cut (grid1.coords t) ((dat1 V c).after 3 t) = _
  rw [after1_3]
  obtain ⟨e0, e1, e2, e3, e4, e5, e6⟩ := idx_facts1 t
  funext y
  show out1_3 (iblk1 V c 0 t) (iblk1 V c 1 t) (iblk1 V c 2 t) y
    = G1 (V c main_v36) (V c main_arg4) (V c main_arg0) (((cfg1.win 3).blk t).view.emb y)
  obtain ⟨r, e, rfl⟩ : ∃ (r : Fin 16) (e : Fin 100000), (y : S16x100000.Idx) = ix2 r e := ⟨y 0, y 1, eq_ix2 y⟩
  refine (hout (iblk1 V c 0 t) (iblk1 V c 1 t) (iblk1 V c 2 t) r e).trans ?_
  have h0 : ((cfg1.win 0).blk t).view.emb (ix2 r e) = ((cfg1.win 3).blk t).view.emb (ix2 r e) := by
    funext a; apply Fin.ext
    match a with
    | ⟨0, _⟩ => show win1_0.index t (0 : Fin 2) * 16 + 1 * r.val = win1_3.index t (0 : Fin 2) * 16 + 1 * r.val; omega
    | ⟨1, _⟩ => show win1_0.index t (1 : Fin 2) * 100000 + 1 * e.val = win1_3.index t (1 : Fin 2) * 100000 + 1 * e.val; omega
  have h2 : ((cfg1.win 2).blk t).view.emb (ix2 r e) = ((cfg1.win 3).blk t).view.emb (ix2 r e) := by
    funext a; apply Fin.ext
    match a with
    | ⟨0, _⟩ => show win1_2.index t (0 : Fin 2) * 16 + 1 * r.val = win1_3.index t (0 : Fin 2) * 16 + 1 * r.val; omega
    | ⟨1, _⟩ => show win1_2.index t (1 : Fin 2) * 100000 + 1 * e.val = win1_3.index t (1 : Fin 2) * 100000 + 1 * e.val; omega
  have h1 : ((cfg1.win 1).blk t).view.emb (ix1 e)
      = ix1 (⟨(((cfg1.win 3).blk t).view.emb (ix2 r e) 1).val, (((cfg1.win 3).blk t).view.emb (ix2 r e) 1).isLt⟩ : Fin 100000) := by
    funext a; apply Fin.ext
    match a with
    | ⟨0, _⟩ => show win1_1.index t (0 : Fin 1) * 100000 + 1 * e.val = win1_3.index t (1 : Fin 2) * 100000 + 1 * e.val; omega
  have key : ∀ (A : S64x100000.Idx → EReal) (B : S100000.Idx → EReal) (C : S64x100000.Idx → EReal),
      A (((cfg1.win 0).blk t).view.emb (ix2 r e)) + B (((cfg1.win 1).blk t).view.emb (ix1 e))
        + C (((cfg1.win 2).blk t).view.emb (ix2 r e))
      = A (((cfg1.win 3).blk t).view.emb (ix2 r e))
        + B (ix1 (⟨(((cfg1.win 3).blk t).view.emb (ix2 r e) 1).val, (((cfg1.win 3).blk t).view.emb (ix2 r e) 1).isLt⟩ : Fin 100000))
        + C (((cfg1.win 3).blk t).view.emb (ix2 r e)) := by
    intro A B C
    rw [h0, h2, h1]
  exact key (V c main_v36) (V c main_arg4) (V c main_arg0)

/-- An index of the output array is in block `t` iff each coordinate is in the block's range on its axis. -/
theorem mem_blk1 (t : Fin cfg1.N) (i : S64x100000.Idx) :
    i ∈ ((cfg1.win 3).blk t).view.set ↔ ∀ a : Fin 2, win1_3.index t a * S16x100000.size a ≤ (i a).val
      ∧ (i a).val < win1_3.index t a * S16x100000.size a + S16x100000.size a := by
  show i ∈ ((View.whole main_v37).slice (win1_3.rect t)).set ↔ _
  rw [View.set_slice_whole, Rect.mem_set_unit]
  exact Iff.rfl

/-- Row `b` lies in block `b / 16`: the four blocks cover the array. -/
theorem cover1 (i : S64x100000.Idx) :
    ∃ t : Fin cfg1.N, (cfg1.win 3).flush t = true ∧ i ∈ ((cfg1.win 3).blk t).view.set := by
  have hi0 : (i 0).val < 64 := (i 0).isLt
  have hi1 : (i 1).val < 100000 := (i 1).isLt
  have hN : cfg1.N = 4 := N_1
  obtain ⟨t, ht⟩ : ∃ t : Fin cfg1.N, t.val = (i 0).val / 16 := ⟨⟨(i 0).val / 16, by rw [hN]; omega⟩, rfl⟩
  obtain ⟨-, -, -, -, -, e5, e6⟩ := idx_facts1 t
  refine ⟨t, flush1_3 t, ?_⟩
  rw [mem_blk1]
  intro a
  match a with
  | ⟨0, _⟩ => show win1_3.index t (0 : Fin 2) * 16 ≤ (i 0).val ∧ (i 0).val < win1_3.index t (0 : Fin 2) * 16 + 16; omega
  | ⟨1, _⟩ => show win1_3.index t (1 : Fin 2) * 100000 ≤ (i 1).val ∧ (i 1).val < win1_3.index t (1 : Fin 2) * 100000 + 100000; omega

/-- The output array after the region: `G1` of the arrays the region found. -/
theorem arr1
    (hout : ∀ (x0 : Vec Ideal S16x100000 .f32) (x1 : Vec Ideal S100000 .f32) (x2 : Vec Ideal S16x100000 .f32)
      (r : Fin 16) (e : Fin 100000), out1_3 (F := Ideal) x0 x1 x2 (ix2 r e) = (x0 (ix2 r e) + x1 (ix1 e)) + x2 (ix2 r e))
    (c : Dev nD) :
    (dat1 (F := Ideal) V c).arrAt 3 cfg1.N = G1 (V c main_v36) (V c main_arg4) (V c main_arg0) :=
  (dat1 (F := Ideal) V c).arrAt_eq_of_cover 3 (G1 (V c main_v36) (V c main_arg4) (V c main_arg0))
    (fun t _ => flushed1_eq V hout c t) cover1

end Cert.KernelIdeal.Val

end
-- ==== Proof.Chain.lean ====
/-
  The kernel program between its regions. Before the first region the host computes the first sparse layer and
  regroups it and the per-node operands; between the regions it flattens the first region's result and computes
  the second sparse layer; neither stretch writes an argument. Read over an arbitrary valuation of the buffers,
  each stretch's output is the specification's chain of the stretch's inputs. Threading the two regions' results
  through, the result buffer ends as ONE function `kout` of the twelve launch arrays.
-/
import proofs.«103248_j69870527971810_2_alg».proof.Proof.Gen.KernelIdeal.Frame
import proofs.«103248_j69870527971810_2_alg».proof.Proof.Spec
import proofs.«103248_j69870527971810_2_alg».proof.Proof.Reg0
import proofs.«103248_j69870527971810_2_alg».proof.Proof.Reg1
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.ShloMosaic.StableHlo
open Idealize.ShloMosaic.ValueIdx Idealize.SL.Sem

section Host

variable (W : Valuation τ sig (Elt Ideal))

/-! ## The stretch before the first region -/

set_option maxHeartbeats 2000000 in
attribute [local irreducible] Host.gather Host.scatterAdd in
/-- The first region's activations: the first sparse layer of the arguments, grouped [batch, node, channel]. -/
theorem host0_v15 :
    StableHlo.after hostOps0 W (Proc.devRef .tc main_v15)
      = shapeCast S64x10000x16 (Cert.Spec.lin1 (F := Ideal) (W (Proc.devRef .tc main_arg0)) (W (Proc.devRef .tc main_arg1))
          (W (Proc.devRef .tc main_arg8)) (W (Proc.devRef .tc main_arg9))) shapeCasts_S64x160000_S64x10000x16 := by
  after_results
  rfl

/-- The input bias grouped [node, channel]. -/
theorem host0_v16 :
    StableHlo.after hostOps0 W (Proc.devRef .tc main_v16)
      = shapeCast S10000x16 (W (Proc.devRef .tc main_arg2)) shapeCasts_S160000_S10000x16 := by
  after_results
  rfl

/-- gamma as a column. -/
theorem host0_v17 :
    StableHlo.after hostOps0 W (Proc.devRef .tc main_v17)
      = shapeCast S10000x1 (W (Proc.devRef .tc main_arg5)) shapeCasts_S10000_S10000x1 := by
  after_results
  rfl

/-- beta as a column. -/
theorem host0_v18 :
    StableHlo.after hostOps0 W (Proc.devRef .tc main_v18)
      = shapeCast S10000x1 (W (Proc.devRef .tc main_arg6)) shapeCasts_S10000_S10000x1 := by
  after_results
  rfl

/-- The mask grouped [node, channel]. -/
theorem host0_v19 :
    StableHlo.after hostOps0 W (Proc.devRef .tc main_v19)
      = shapeCast S10000x16 (W (Proc.devRef .tc main_arg7)) shapeCasts_S160000_S10000x16 := by
  after_results
  rfl

/-! The stretch writes none of the arguments read later. -/

theorem host0_arg0 :
    StableHlo.after hostOps0 W (Proc.devRef .tc main_arg0) = W (Proc.devRef .tc main_arg0) := by
  after_results

theorem host0_arg3 :
    StableHlo.after hostOps0 W (Proc.devRef .tc main_arg3) = W (Proc.devRef .tc main_arg3) := by
  after_results

theorem host0_arg4 :
    StableHlo.after hostOps0 W (Proc.devRef .tc main_arg4) = W (Proc.devRef .tc main_arg4) := by
  after_results

theorem host0_arg10 :
    StableHlo.after hostOps0 W (Proc.devRef .tc main_arg10) = W (Proc.devRef .tc main_arg10) := by
  after_results

theorem host0_arg11 :
    StableHlo.after hostOps0 W (Proc.devRef .tc main_arg11) = W (Proc.devRef .tc main_arg11) := by
  after_results

/-! ## The stretch between the regions -/

set_option maxHeartbeats 2000000 in
attribute [local irreducible] Host.gather Host.scatterAdd in
/-- The second region's first operand: the second sparse layer of the first region's flattened result. -/
theorem host1_v36 :
    StableHlo.after hostOps1 W (Proc.devRef .tc main_v36)
      = Cert.Spec.lin2 (F := Ideal)
          (shapeCast S64x160000 (W (Proc.devRef .tc main_v20)) shapeCasts_S64x10000x16_S64x160000)
          (W (Proc.devRef .tc main_arg3)) (W (Proc.devRef .tc main_arg10)) (W (Proc.devRef .tc main_arg11)) := by
  after_results
  rfl

theorem host1_arg0 :
    StableHlo.after hostOps1 W (Proc.devRef .tc main_arg0) = W (Proc.devRef .tc main_arg0) := by
  after_results

theorem host1_arg4 :
    StableHlo.after hostOps1 W (Proc.devRef .tc main_arg4) = W (Proc.devRef .tc main_arg4) := by
  after_results

end Host

/-! ## The result buffer as one function of the launch arrays -/

/-- The kernel program's result: first sparse layer, regrouped; the first region's cells; flattened; second
    sparse layer; the second region's bias and residual. -/
def kout (a0 : FVec Ideal S64x100000 .f32) (a1 : FVec Ideal S1600000 .f32) (a2 : FVec Ideal S160000 .f32)
    (a3 : FVec Ideal S1600000 .f32) (a4 : FVec Ideal S100000 .f32) (a5 a6 : FVec Ideal S10000 .f32)
    (a7 : FVec Ideal S160000 .f32) (a8 a9 a10 a11 : IVec S1600000 32) : S64x100000.Idx → EReal :=
  G1 (Cert.Spec.lin2 (F := Ideal)
        (shapeCast S64x160000
          (G0 (shapeCast S64x10000x16 (Cert.Spec.lin1 (F := Ideal) a0 a1 a8 a9) shapeCasts_S64x160000_S64x10000x16)
            (shapeCast S10000x16 a2 shapeCasts_S160000_S10000x16) (shapeCast S10000x1 a5 shapeCasts_S10000_S10000x1)
            (shapeCast S10000x1 a6 shapeCasts_S10000_S10000x1) (shapeCast S10000x16 a7 shapeCasts_S160000_S10000x16))
          shapeCasts_S64x10000x16_S64x160000) a3 a10 a11) a4 a0

variable (m : (ℓ : Loc nD τ sig) → Buf (Elt Ideal) ℓ) (ρ : Dev nD → PrngReg)

/-- The last boundary's contents at the result buffer: the second region's array over the second stretch over the
    first region's array over the first stretch over the launch memory. -/
theorem W4_v37
    (hout0 : ∀ (x0 : Vec Ideal S1x10000x16 .f32) (x1 : Vec Ideal S10000x16 .f32) (x2 x3 : Vec Ideal S10000x1 .f32)
      (x4 : Vec Ideal S10000x16 .f32) (n : Fin 10000) (c : Fin 16),
      out0_5 (F := Ideal) x0 x1 x2 x3 x4 (ix3 (0 : Fin 1) n c)
        = Cert.Spec.cell (fun k => x0 (ix3 (0 : Fin 1) n k) + x1 (ix2 n k)) (x2 (ix2 n (0 : Fin 1))) (x3 (ix2 n (0 : Fin 1))) (x4 (ix2 n c)) c)
    (hout1 : ∀ (x0 : Vec Ideal S16x100000 .f32) (x1 : Vec Ideal S100000 .f32) (x2 : Vec Ideal S16x100000 .f32)
      (r : Fin 16) (e : Fin 100000), out1_3 (F := Ideal) x0 x1 x2 (ix2 r e) = (x0 (ix2 r e) + x1 (ix1 e)) + x2 (ix2 r e))
    (c : Dev nD) :
    W4 m ρ c (Proc.devRef .tc main_v37)
      = kout (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  -- the second region's exit
  have s1 : W4 m ρ c (Proc.devRef .tc main_v37) = (dat1 (V3 m ρ) c).arrAt 3 cfg1.N := W4_arr m ρ c 3
  -- what the second region found
  have e36 : V3 m ρ c main_v36 = _ := host1_v36 (W2 m ρ c)
  have e4 : V3 m ρ c main_arg4 = m ((c : Thread nD τ).loc main_arg4) :=
    (host1_arg4 (W2 m ρ c)).trans ((W2_of_ne m ρ c main_arg4 (by decide)).trans (host0_arg4 (W0 m ρ c)))
  have e0 : V3 m ρ c main_arg0 = m ((c : Thread nD τ).loc main_arg0) :=
    (host1_arg0 (W2 m ρ c)).trans ((W2_of_ne m ρ c main_arg0 (by decide)).trans (host0_arg0 (W0 m ρ c)))
  have e3 : W2 m ρ c (Proc.devRef .tc main_arg3) = m ((c : Thread nD τ).loc main_arg3) :=
    (W2_of_ne m ρ c main_arg3 (by decide)).trans (host0_arg3 (W0 m ρ c))
  have e10 : W2 m ρ c (Proc.devRef .tc main_arg10) = m ((c : Thread nD τ).loc main_arg10) :=
    (W2_of_ne m ρ c main_arg10 (by decide)).trans (host0_arg10 (W0 m ρ c))
  have e11 : W2 m ρ c (Proc.devRef .tc main_arg11) = m ((c : Thread nD τ).loc main_arg11) :=
    (W2_of_ne m ρ c main_arg11 (by decide)).trans (host0_arg11 (W0 m ρ c))
  -- the first region's exit, and what it found
  have e20 : W2 m ρ c (Proc.devRef .tc main_v20)
      = G0 (V1 m ρ c main_v15) (V1 m ρ c main_v16) (V1 m ρ c main_v17) (V1 m ρ c main_v18) (V1 m ρ c main_v19) :=
    (W2_arr m ρ c 5).trans (arr0 (V1 m ρ) hout0 c)
  have e15 : V1 m ρ c main_v15 = _ := host0_v15 (W0 m ρ c)
  have e16 : V1 m ρ c main_v16 = _ := host0_v16 (W0 m ρ c)
  have e17 : V1 m ρ c main_v17 = _ := host0_v17 (W0 m ρ c)
  have e18 : V1 m ρ c main_v18 = _ := host0_v18 (W0 m ρ c)
  have e19 : V1 m ρ c main_v19 = _ := host0_v19 (W0 m ρ c)
  rw [s1, arr1 (V3 m ρ) hout1 c, e36, e4, e0, e20, e3, e10, e11, e15, e16, e17, e18, e19]
  rfl

end Cert.KernelIdeal.Val

end
-- ==== Proof.BodyApply.lean ====
/-
  The two kernel bodies' stored blocks, read at one index.

  The normalisation body loads a `[1, 10000, 16]` block of hidden activations, a `[10000, 16]` bias, two `[10000, 1]`
  columns (gamma, beta) and a `[10000, 16]` mask, and stores one `[1, 10000, 16]` block. Read at `(0, n, c)`, what it
  stores depends only on row `n`: the sixteen sums `x0 (0, n, k) + x1 (n, k)`, centred by their mean, scaled by the
  reciprocal root of their variance plus epsilon, mapped by gamma and beta at `n`, sent through ELU and multiplied by the
  mask at `(n, c)` — `Cert.Spec.cell` of that row. The residual body stores, at `(r, e)`, its first block plus the
  bias at `e` plus its third block.

  Each proof is the same walk: a store through the whole buffer leaves its payload and a load through the whole buffer reads
  the contents; the pointwise operations read through at the index; each layout operation (a unit axis added in front or
  behind, a broadcast along a unit axis) reads its operand at the index with the unit coordinate dropped or set to zero;
  and the sum over the last axis of a `[1, 10000, 16]` block at `(u, n)` is the sum over `k : Fin 16` of the block at
  `(u, n, k)`.
-/
import proofs.«103248_j69870527971810_2_alg».proof.Proof.Spec
import proofs.«103248_j69870527971810_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section
open Idealize.ShloMosaic Idealize.ShloMosaic.ValueIdx

namespace Cert.BodyApply

open Cert.KernelIdeal

/-! ## The zero offsets of the whole-buffer rectangles, at ranks 1, 2 and 3 -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## Layout operations of the normalisation body, read at an index -/

/-- A `[1, a]` array given a trailing unit axis reads, at `(u, i, w)`, the operand at `(u, i)`: both indices have
    row-major position `u * a + i`. -/
theorem shapeCast_1a_1a1_apply {α : Type} {a : ℕ} (x : (⟨2, ![1, a]⟩ : Shape).Idx → α)
    (h : (⟨2, ![1, a]⟩ : Shape).ShapeCasts ⟨3, ![1, a, 1]⟩) (u : Fin 1) (i : Fin a) (w : Fin 1) :
    shapeCast ⟨3, ![1, a, 1]⟩ x h (ix3 u i w) = x (ix2 u i) :=
  shapeCast_apply x h _ _ (by
    have hw : w.val = 0 := by omega
    rw [Shape.rowMajor_val_three, Shape.rowMajor_val_two]
    show u.val * a + i.val = (u.val * a + i.val) * 1 + w.val
    rw [hw, Nat.mul_one, Nat.add_zero])

/-- A `[1, a, 1]` array broadcast along its last axis to `[1, a, b]` reads, at `(u, i, c)`, the operand at
    `(u, i, 0)`. -/
theorem broadcastTo_1a1_1ab_apply {α : Type} {a b : ℕ} (v : (⟨3, ![1, a, 1]⟩ : Shape).Idx → α)
    (h : (⟨3, ![1, a, 1]⟩ : Shape).Broadcasts ⟨3, ![1, a, b]⟩) (u : Fin 1) (i : Fin a) (c : Fin b) :
    broadcastTo ⟨3, ![1, a, b]⟩ v h (ix3 u i c) = v (ix3 u i (0 : Fin 1)) := by
  refine broadcastTo_apply v h (ix3 u i c) (ix3 u i (0 : Fin 1)) fun ax => ?_
  match ax with
  | ⟨0, _⟩ =>
    show u.val = if (1 : ℕ) = 1 then 0 else u.val
    rw [if_pos rfl]; omega
  | ⟨1, _⟩ =>
    show i.val = if a = 1 then 0 else i.val
    split
    · have := i.isLt; omega
    · rfl
  | ⟨2, _⟩ => rfl

/-- The sum over the last axis of a `[1, 10000, 16]` block, read at `(u, n)`, is the sum over the sixteen channels of
    the block at `(u, n, k)`: the index inserted over `(u, n)` with `k` on the dropped axis is `(u, n, k)`. -/
theorem laneSum_apply (v : FVec Ideal S1x10000x16 .f32) (hφ : FKind.Formats .f32)
    (hacc : @Eq (BitVec FTy.f32.bits) 0x00000000#32 0x00000000#32) (u : Fin 1) (n : Fin 10000) :
    multiReduction .add [2] S1x10000 v 0x00000000#32 Gen.reduces_S1x10000x16_S1x10000 hφ hacc (ix2 u n)
      = ∑ k : Fin 16, v (ix3 u n k) := by
  refine (Ideal.multiReduction_add_single v 0x00000000#32 Gen.reduces_S1x10000x16_S1x10000 hφ hacc (ix2 u n)).trans ?_
  show ∑ k : Fin 16, v (Gen.reduces_S1x10000x16_S1x10000.lift (ix2 u n) k) = _
  refine Finset.sum_congr rfl fun k _ => congrArg v ?_
  funext ax
  match ax with
  | ⟨0, _⟩ => exact Fin.ext rfl
  | ⟨1, _⟩ => exact Fin.ext rfl
  | ⟨2, _⟩ => exact Fin.ext rfl

/-- A reciprocal square root at an index is the reciprocal square root of the element. -/
theorem rsqrt_apply {s : Shape} {φ : FTy} (a : FVec Ideal s φ) (i : s.Idx) : rsqrt a i = Ideal.rsqrt (a i) := rfl
/-- An exponential at an index is the exponential of the element. -/
theorem exp_apply {s : Shape} {φ : FTy} (a : FVec Ideal s φ) (i : s.Idx) : exp a i = Ideal.exp (a i) := rfl

/-- The word of `1.0` denotes the extended real `1`. -/
theorem ofBits_one : Ideal.ofBits .f32 0x3F800000#32 = 1 := by
  simp [Ideal.ofBits, Ideal.ieee, -EReal.coe_mul]; norm_num

/-! ## The normalisation body -/

/-- The mask block, given a leading unit axis, reads at `(0, n, c)` the mask at `(n, c)`. -/
theorem pay3_apply (x4 : Vec Ideal S10000x16 .f32) (n : Fin 10000) (c : Fin 16) :
    Gen.k0_pay3 (F := Ideal) x4 (ix3 (0 : Fin 1) n c) = x4 (ix2 n c) := by
  unfold Gen.k0_pay3
  rw [shapeCast_self]
  exact shapeCast_ab_1ab_apply x4 _ (0 : Fin 1) n c

/-- The normalised, mapped, ELU-ed value at `(0, n, c)`: ELU of channel `c` of row `n`'s normalisation. The row is
    `k ↦ x0 (0, n, k) + x1 (n, k)`; its mean is the channel sum over 16; the variance is the channel sum of the squared
    deviations over 16; gamma and beta are read at `(n, 0)`. -/
theorem pay2_apply (x0 : Vec Ideal S1x10000x16 .f32) (x1 : Vec Ideal S10000x16 .f32)
    (x2 x3 : Vec Ideal S10000x1 .f32) (n : Fin 10000) (c : Fin 16) :
    Gen.k0_pay2 (F := Ideal) x0 x1 x2 x3 (ix3 (0 : Fin 1) n c)
      = Cert.Spec.relu1 (Cert.Spec.rnorm (fun k => x0 (ix3 (0 : Fin 1) n k) + x1 (ix2 n k))
          (x2 (ix2 n (0 : Fin 1))) (x3 (ix2 n (0 : Fin 1))) c) := by
  unfold Gen.k0_pay2
  simp only [shapeCast_self]
  -- the pointwise operations and the layout operations, down to the two channel sums
  simp only [select_apply, cmpf_apply, addf_apply, mulf_apply, subf_apply, divf_apply, exp_apply, rsqrt_apply,
    broadcast_apply, broadcastTo_1a1_1ab_apply, shapeCast_1a_1a1_apply, shapeCast_ab_1ab_apply]
  -- the row's channel sum (the mean's numerator) and the channel sum of the squared deviations (the variance's
  -- numerator); then the same reading inside the second sum, where the row's channel sum appears again
  rw [laneSum_apply, laneSum_apply]
  simp only [addf_apply, mulf_apply, subf_apply, divf_apply, broadcast_apply, broadcastTo_1a1_1ab_apply,
    shapeCast_1a_1a1_apply, shapeCast_ab_1ab_apply]
  rw [laneSum_apply]
  -- the comparison and the literals 0 and 1 on the extended reals
  simp only [addf_apply, shapeCast_ab_1ab_apply, Ideal.cmpf_def, Ideal.ofBits_def, Ideal.ofBits_zero_f32, ofBits_one]
  rfl

/-- THE NORMALISATION BODY'S STORED BLOCK at `(0, n, c)`: one output cell of row `n`. -/
theorem out0_5_apply (x0 : Vec Ideal Cert.KernelIdeal.S1x10000x16 .f32) (x1 : Vec Ideal Cert.KernelIdeal.S10000x16 .f32)
    (x2 x3 : Vec Ideal Cert.KernelIdeal.S10000x1 .f32) (x4 : Vec Ideal Cert.KernelIdeal.S10000x16 .f32)
    (n : Fin 10000) (c : Fin 16) :
    Cert.KernelIdeal.Gen.out0_5 (F := Ideal) x0 x1 x2 x3 x4 (ix3 (0 : Fin 1) n c)
      = Cert.Spec.cell (fun k => x0 (ix3 (0 : Fin 1) n k) + x1 (ix2 n k))
          (x2 (ix2 n (0 : Fin 1))) (x3 (ix2 n (0 : Fin 1))) (x4 (ix2 n c)) c := by
  unfold Cert.KernelIdeal.Gen.out0_5
  rw [View.canon_unit_zero hz3]
  simp only [View.ld_unit_zero (S := S1x10000x16) hz3, View.ld_unit_zero (S := S10000x16) hz2,
    View.ld_unit_zero (S := S10000x1) hz2]
  unfold Cert.KernelIdeal.Gen.k0_pay1
  show Gen.k0_pay2 x0 x1 x2 x3 (ix3 (0 : Fin 1) n c) * Gen.k0_pay3 x4 (ix3 (0 : Fin 1) n c) = _
  rw [pay2_apply, pay3_apply]
  rfl

/-! ## The residual body -/

/-- THE RESIDUAL BODY'S STORED BLOCK at `(r, e)`: the first block plus the bias at `e`, plus the third block. The bias
    is a vector given a leading unit axis and broadcast over the sixteen rows. -/
theorem out1_3_apply (x0 : Vec Ideal Cert.KernelIdeal.S16x100000 .f32) (x1 : Vec Ideal Cert.KernelIdeal.S100000 .f32)
    (x2 : Vec Ideal Cert.KernelIdeal.S16x100000 .f32) (r : Fin 16) (e : Fin 100000) :
    Cert.KernelIdeal.Gen.out1_3 (F := Ideal) x0 x1 x2 (ix2 r e)
      = (x0 (ix2 r e) + x1 (ix1 e)) + x2 (ix2 r e) := by
  unfold Cert.KernelIdeal.Gen.out1_3
  rw [View.canon_unit_zero hz2]
  simp only [View.ld_unit_zero (S := S16x100000) hz2, View.ld_unit_zero (S := S100000) hz1]
  unfold Cert.KernelIdeal.Gen.k1_pay1
  rw [shapeCast_self]
  show (x0 (ix2 r e) + broadcastTo S16x100000 (shapeCast S1x100000 x1 Gen.shapeCasts_S100000_S1x100000)
          Gen.broadcasts_S1x100000_S16x100000 (ix2 r e)) + x2 (ix2 r e) = _
  refine congrArg (fun z => (x0 (ix2 r e) + z) + x2 (ix2 r e)) ?_
  refine (broadcastTo_1b_ab_apply _ _ r e).trans ?_
  exact shapeCast_a_1a_apply x1 _ (0 : Fin 1) e

end Cert.BodyApply
end
-- ==== Proof.MidApply.lean ====
/-
  The reference's middle, read one entry at a time. The whole-array chain of the specification (bias, grouping
  into rows of 16 channels, centring, variance, reciprocal root, gamma and beta, ELU, mask) is followed from the
  outside in: at flat column 16·n + c of batch row b every layout operation names ONE entry of its operand, the
  row-major regrouping sends column 16·n + c to (node n, channel c), the channel sum is a sum over Fin 16, and
  what is left is the one-row function on the extended reals.
-/
import proofs.«103248_j69870527971810_2_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.Spec

open Cert.ReferenceIdeal Cert.ReferenceIdeal.Gen Idealize.ShloMosaic Idealize.ShloMosaic.ValueIdx

/-! ## The three literals that are evaluated -/

/-- The literal 16 is positive: the only thing the variance's guard asks of it. -/
theorem c16_pos : (0 : EReal) < c16 := by
  have h : c16 = ((16 : ℝ) : EReal) := by
    unfold c16
    simp [Ideal.ofBits, Ideal.ieee, -EReal.coe_mul]; norm_num
  rw [h]
  exact_mod_cast (by norm_num : (0 : ℝ) < 16)

/-- The literal 1.0 is the extended real 1. -/
theorem ofBits_one : Ideal.ofBits .f32 0x3F800000#32 = 1 := by
  simp [Ideal.ofBits, Ideal.ieee, -EReal.coe_mul]; norm_num

/-! ## Broadcasts read at an index -/

/-- A vector along the columns, laid on every batch row, reads its own entry at the column. -/
theorem rows_apply (v : FVec Ideal S160000 .f32) (b : Fin 64) (j : Fin 160000) :
    broadcastInDim S64x160000 ![0, 1] bcast_S1x160000_S64x160000_0_1
        (broadcastInDim S1x160000 ![1] bcast_S160000_S1x160000_1 v) (ix2 b j) = v (ix1 j) := by
  refine (broadcastInDim_apply _ _ _ (ix2 b j) (ix2 (0 : Fin 1) j) (fun a => ?_)).trans ?_
  · match a with
    | ⟨0, _⟩ => rfl
    | ⟨1, _⟩ => rfl
  · refine broadcastInDim_apply _ _ _ (ix2 (0 : Fin 1) j) (ix1 j) (fun a => ?_)
    match a with
    | ⟨0, _⟩ => rfl

/-- A per-(batch, node) value with a unit last axis, laid along the 16 channels, reads the node's value. -/
theorem chan_apply (v : FVec Ideal S64x10000x1 .f32) (b : Fin 64) (n : Fin 10000) (c : Fin 16) :
    broadcastInDim S64x10000x16 ![0, 1, 2] bcast_S64x10000x1_S64x10000x16_0_1_2 v (ix3 b n c)
      = v (ix3 b n (0 : Fin 1)) := by
  refine broadcastInDim_apply _ _ _ (ix3 b n c) (ix3 b n (0 : Fin 1)) (fun a => ?_)
  match a with
  | ⟨0, _⟩ => rfl
  | ⟨1, _⟩ => rfl
  | ⟨2, _⟩ => rfl

/-- A scalar laid over the [64,10000,1] array reads the scalar. -/
theorem splat1_apply {α : Type} (v : S_.Idx → α) (i : S64x10000x1.Idx) :
    broadcastInDim S64x10000x1 ![] bcast_S_S64x10000x1 v i = v ix0 :=
  broadcastInDim_apply _ _ _ i ix0 (fun a => a.elim0)

/-- A scalar laid over the [64,160000] array reads the scalar. -/
theorem splat2_apply {α : Type} (v : S_.Idx → α) (i : S64x160000.Idx) :
    broadcastInDim S64x160000 ![] bcast_S_S64x160000 v i = v ix0 :=
  broadcastInDim_apply _ _ _ i ix0 (fun a => a.elim0)

/-- gamma or beta laid along batch and channel reads the node's entry. -/
theorem perNode_apply (g : FVec Ideal S10000 .f32) (b : Fin 64) (n : Fin 10000) (c : Fin 16) :
    perNode (F := Ideal) g (ix3 b n c) = g (ix1 n) := by
  unfold perNode
  refine (broadcastInDim_apply _ _ _ (ix3 b n c) (ix3 (0 : Fin 1) n (0 : Fin 1)) (fun a => ?_)).trans ?_
  · match a with
    | ⟨0, _⟩ => rfl
    | ⟨1, _⟩ => rfl
    | ⟨2, _⟩ => rfl
  · refine broadcastInDim_apply _ _ _ (ix3 (0 : Fin 1) n (0 : Fin 1)) (ix1 n) (fun a => ?_)
    match a with
    | ⟨0, _⟩ => rfl

/-! ## The chain, one operation at a time -/

/-- Grouped entry (b, n, k) is flat column 16·n + k of row b, with its bias. -/
theorem hb_apply (H : FVec Ideal S64x160000 .f32) (b_in : FVec Ideal S160000 .f32)
    (b : Fin 64) (n : Fin 10000) (k : Fin 16) :
    hb (F := Ideal) H b_in (ix3 b n k) = H (ix2 b (hcol n k)) + b_in (ix1 (hcol n k)) := by
  unfold hb
  refine (shapeCast_apply _ _ (ix3 b n k) (ix2 b (hcol n k)) ?_).trans ?_
  · rw [Shape.rowMajor_val_two, Shape.rowMajor_val_three]
    show b.val * 160000 + (n.val * 16 + k.val) = (b.val * 10000 + n.val) * 16 + k.val
    omega
  · rw [addf_apply, rows_apply]

/-- The channel sum from zero is the sum over the 16 channels. -/
theorem sum3_apply (h : FVec Ideal S64x10000x16 .f32) (b : Fin 64) (n : Fin 10000) (u : Fin 1) :
    sum3 (F := Ideal) h (ix3 b n u) = ∑ k : Fin 16, h (ix3 b n k) := by
  unfold sum3
  refine (broadcastInDim_apply _ _ _ (ix3 b n u) (ix2 b n) (fun a => ?_)).trans ?_
  · match a with
    | ⟨0, _⟩ => rfl
    | ⟨1, _⟩ => rfl
  · unfold Host.reduceAdd
    rw [Ideal.hostReduceAdd_def]
    refine (Ideal.hostReduceAdd_single _ (by decide : S64x10000x16.Reduces [2] S64x10000) h _ (ix2 b n)).trans ?_
    show Ideal.ofBits .f32 0x00000000#32 + _ = _
    rw [Ideal.ofBits_zero_f32, zero_add]
    exact Finset.sum_congr rfl fun k _ => congrArg h (funext fun a => by
      match a with
      | ⟨0, _⟩ => rfl
      | ⟨1, _⟩ => rfl
      | ⟨2, _⟩ => rfl)

/-- The channel mean is the row's mean. -/
theorem mean3_apply (h : FVec Ideal S64x10000x16 .f32) (b : Fin 64) (n : Fin 10000) (u : Fin 1) :
    mean3 (F := Ideal) h (ix3 b n u) = rmean (fun k => h (ix3 b n k)) := by
  unfold mean3 Host.divf
  show Ideal.div (sum3 (F := Ideal) h (ix3 b n u))
      (broadcastInDim S64x10000x1 ![] bcast_S_S64x10000x1 (constant (F := Ideal) S_ .f32 0x41800000#32) (ix3 b n u)) = _
  rw [sum3_apply, splat1_apply]
  rfl

/-- A centred entry is the entry less its row's mean. -/
theorem centred_apply (h : FVec Ideal S64x10000x16 .f32) (b : Fin 64) (n : Fin 10000) (c : Fin 16) :
    centred (F := Ideal) h (ix3 b n c) = h (ix3 b n c) - rmean (fun k => h (ix3 b n k)) := by
  unfold centred
  rw [subf_apply, chan_apply, mean3_apply]

/-- The variance's divisor is the literal 16: the degrees-of-freedom correction is the integer zero. -/
theorem nrm_apply (i : S_.Idx) : nrm (F := Ideal) i = c16 := by
  show Ideal.ofBits .f32 0x41800000#32 - (((0#32 : BitVec 32).toInt : ℝ) : EReal) = c16
  rw [BitVec.toInt_zero, Int.cast_zero, EReal.coe_zero, sub_zero]
  rfl

/-- The guarded variance is the row's variance: the guard 16 > 0 holds, so the quotient is taken. -/
theorem var3_apply (h : FVec Ideal S64x10000x16 .f32) (b : Fin 64) (n : Fin 10000) (u : Fin 1) :
    var3 (F := Ideal) h (ix3 b n u) = rvar (fun k => h (ix3 b n k)) := by
  unfold var3
  rw [select_apply, splat1_apply, cmpf_apply, nrm_apply]
  have hg : FloatOps.cmpf (F := Ideal) (φ := .f32) .ogt c16 (constant (F := Ideal) S_ .f32 0x00000000#32 ix0) = 1#1 := by
    show BitVec.ofBool (decide (Ideal.ofBits .f32 0x00000000#32 < c16)) = 1#1
    rw [Ideal.ofBits_zero_f32, decide_eq_true c16_pos]
    rfl
  rw [hg, select_one]
  unfold Host.divf
  show Ideal.div (sum3 (F := Ideal) (mulf (centred (F := Ideal) h) (centred (F := Ideal) h)) (ix3 b n u))
      (broadcastInDim S64x10000x1 ![] bcast_S_S64x10000x1 (nrm (F := Ideal)) (ix3 b n u)) = _
  rw [sum3_apply, splat1_apply, nrm_apply]
  unfold rvar
  refine congrArg (fun s => Ideal.div s c16) (Finset.sum_congr rfl fun k _ => ?_)
  rw [mulf_apply, centred_apply]

/-- A normalised, mapped entry is the row function's. -/
theorem normed_apply (h : FVec Ideal S64x10000x16 .f32) (gamma beta : FVec Ideal S10000 .f32)
    (b : Fin 64) (n : Fin 10000) (c : Fin 16) :
    normed (F := Ideal) h gamma beta (ix3 b n c)
      = rnorm (fun k => h (ix3 b n k)) (gamma (ix1 n)) (beta (ix1 n)) c := by
  unfold normed
  rw [addf_apply, mulf_apply, mulf_apply, perNode_apply, perNode_apply, centred_apply, chan_apply]
  unfold Host.rsqrt
  show gamma (ix1 n) * ((h (ix3 b n c) - rmean fun k => h (ix3 b n k))
      * Ideal.rsqrt (addf (var3 (F := Ideal) h)
          (broadcastInDim S64x10000x1 ![] bcast_S_S64x10000x1 (constant (F := Ideal) S_ .f32 0x3727C5AC#32))
          (ix3 b n (0 : Fin 1)))) + beta (ix1 n) = _
  rw [addf_apply, var3_apply, splat1_apply]
  rfl

/-- ELU in the library's spelling is, entry by entry, ELU in the kernel's: where the entry is positive both give
    it back; elsewhere the inner select passes the entry through and the factor 1 drops. -/
theorem elu_apply (z : FVec Ideal S64x160000 .f32) (i : S64x160000.Idx) :
    elu (F := Ideal) z i = relu1 (z i) := by
  unfold elu relu1 Host.expm1
  rw [select_apply, cmpf_apply, splat2_apply]
  show Scalar.select (Ideal.cmp .ogt (z i) (Ideal.ofBits .f32 0x00000000#32)) (z i)
      (mulf (broadcastInDim S64x160000 ![] bcast_S_S64x160000 (constant (F := Ideal) S_ .f32 0x3F800000#32))
        (fun j => FloatOps.hostUnary (F := Ideal) .expm1
          (select (cmpf .ogt z (broadcastInDim S64x160000 ![] bcast_S_S64x160000 (constant (F := Ideal) S_ .f32 0x00000000#32)))
            (broadcastInDim S64x160000 ![] bcast_S_S64x160000 (id (constant (F := Ideal) S_ .f32 0x00000000#32))) z j)) i) = _
  rw [Ideal.ofBits_zero_f32]
  rcases BitVec.eq_zero_or_eq_one (Ideal.cmp .ogt (z i) 0) with hc | hc
  · rw [hc, select_zero, select_zero, mulf_apply, splat2_apply]
    show Ideal.ofBits .f32 0x3F800000#32
        * (Ideal.exp (Scalar.select (Ideal.cmp .ogt (z i) (Ideal.ofBits .f32 0x00000000#32)) _ (z i)) - 1) = _
    rw [Ideal.ofBits_zero_f32, hc, select_zero, ofBits_one, one_mul]
  · rw [hc, select_one, select_one]

/-! ## The middle at a column -/

/-- Entry (b, 16·n + c) of the reference's middle is the row function of node n's 16 biased activations in
    batch row b, at channel c, with the node's gamma and beta and the column's mask. -/
theorem mid_apply (H : FVec Ideal S64x160000 .f32) (b_in : FVec Ideal S160000 .f32)
    (gamma beta : FVec Ideal S10000 .f32) (mask : FVec Ideal S160000 .f32)
    (b : Fin 64) (n : Fin 10000) (c : Fin 16) :
    mid (F := Ideal) H b_in gamma beta mask (ix2 b (hcol n c))
      = cell (fun k => H (ix2 b (hcol n k)) + b_in (ix1 (hcol n k)))
          (gamma (ix1 n)) (beta (ix1 n)) (mask (ix1 (hcol n c))) c := by
  unfold mid cell
  rw [mulf_apply, rows_apply, elu_apply]
  have hz : shapeCast S64x160000 (normed (F := Ideal) (hb (F := Ideal) H b_in) gamma beta)
      shapeCasts_S64x10000x16_S64x160000 (ix2 b (hcol n c))
        = normed (F := Ideal) (hb (F := Ideal) H b_in) gamma beta (ix3 b n c) := by
    refine shapeCast_apply _ _ (ix2 b (hcol n c)) (ix3 b n c) ?_
    rw [Shape.rowMajor_val_two, Shape.rowMajor_val_three]
    show (b.val * 10000 + n.val) * 16 + c.val = b.val * 160000 + (n.val * 16 + c.val)
    omega
  rw [hz, normed_apply]
  have hr : (fun k : Fin 16 => hb (F := Ideal) H b_in (ix3 b n k))
      = fun k => H (ix2 b (hcol n k)) + b_in (ix1 (hcol n k)) := funext fun k => hb_apply H b_in b n k
  rw [hr]

end Cert.Spec

end
-- ==== Proof.Bridge.lean ====
/-
  The two whole-array identities that join what the regions leave to the specification. The first region's
  operands are regroupings of the flat arrays — [64,160000] as [64,10000,16], [160000] as [10000,16], [10000] as
  [10000,1] — and its result is regrouped back to [64,160000]. A row-major regrouping keeps the position: flat
  column 16·n + k is (node n, channel k), so each regrouped operand reads back the flat entry, and the region's
  cell at (b, n, c) is the specification's middle at (b, 16·n + c). The second region's entry is
  (y + bias) + x, which is the specification's last step read at an index: the bias laid along the batch rows
  reads its own entry at the column.
-/
import proofs.«103248_j69870527971810_2_alg».proof.Proof.Reg0
import proofs.«103248_j69870527971810_2_alg».proof.Proof.Reg1
import proofs.«103248_j69870527971810_2_alg».proof.Proof.MidApply
import Idealize.ShloMosaic.Lib.ValueIdx
import Idealize.ShloMosaic.Lib.Pipeline.Value

noncomputable section

namespace Cert.KernelIdeal.Val

open Cert.KernelIdeal Cert.KernelIdeal.Gen Idealize.ShloMosaic Idealize.ShloMosaic.ValueIdx

/-! ## Row-major regroupings read at an index -/

/-- [64,160000] regrouped as [64,10000,16]: entry (b, n, k) is flat column 16·n + k of row b. -/
theorem group3_apply {α : Type} (x : S64x160000.Idx → α) (b : Fin 64) (n : Fin 10000) (k : Fin 16) :
    shapeCast S64x10000x16 x shapeCasts_S64x160000_S64x10000x16 (ix3 b n k) = x (ix2 b (Cert.Spec.hcol n k)) := by
  refine shapeCast_apply _ _ (ix3 b n k) (ix2 b (Cert.Spec.hcol n k)) ?_
  rw [Shape.rowMajor_val_two, Shape.rowMajor_val_three]
  show b.val * 160000 + (n.val * 16 + k.val) = (b.val * 10000 + n.val) * 16 + k.val
  omega

/-- [160000] regrouped as [10000,16]: entry (n, k) is flat entry 16·n + k. -/
theorem group2_apply {α : Type} (x : S160000.Idx → α) (n : Fin 10000) (k : Fin 16) :
    shapeCast S10000x16 x shapeCasts_S160000_S10000x16 (ix2 n k) = x (ix1 (Cert.Spec.hcol n k)) := by
  refine shapeCast_apply _ _ (ix2 n k) (ix1 (Cert.Spec.hcol n k)) ?_
  rw [Shape.rowMajor_val_one, Shape.rowMajor_val_two]
  show n.val * 16 + k.val = n.val * 16 + k.val
  rfl

/-- [10000] as a column [10000,1]: entry (n, ·) is entry n. -/
theorem col1_apply {α : Type} (x : S10000.Idx → α) (n : Fin 10000) (u : Fin 1) :
    shapeCast S10000x1 x shapeCasts_S10000_S10000x1 (ix2 n u) = x (ix1 n) := by
  refine shapeCast_apply _ _ (ix2 n u) (ix1 n) ?_
  rw [Shape.rowMajor_val_one, Shape.rowMajor_val_two]
  show n.val = n.val * 1 + u.val
  omega

/-- [64,10000,16] flattened back to [64,160000]: column 16·n + c of row b is entry (b, n, c). -/
theorem flat_apply {α : Type} (x : S64x10000x16.Idx → α) (b : Fin 64) (n : Fin 10000) (c : Fin 16) :
    shapeCast S64x160000 x shapeCasts_S64x10000x16_S64x160000 (ix2 b (Cert.Spec.hcol n c)) = x (ix3 b n c) := by
  refine shapeCast_apply _ _ (ix2 b (Cert.Spec.hcol n c)) (ix3 b n c) ?_
  rw [Shape.rowMajor_val_two, Shape.rowMajor_val_three]
  show (b.val * 10000 + n.val) * 16 + c.val = b.val * 160000 + (n.val * 16 + c.val)
  omega

/-- Every column below 160000 is 16·n + c for one node n and one channel c. -/
theorem exists_hcol (col : Fin 160000) : ∃ (n : Fin 10000) (c : Fin 16), col = Cert.Spec.hcol n c :=
  ⟨⟨col.val / 16, by have := col.isLt; omega⟩, ⟨col.val % 16, by omega⟩,
    Fin.ext (by show col.val = col.val / 16 * 16 + col.val % 16; omega)⟩

/-! ## The first region's array is the specification's middle -/

theorem bridge_mid (H : FVec Ideal S64x160000 .f32) (b_in : FVec Ideal S160000 .f32)
    (gamma beta : FVec Ideal S10000 .f32) (mask : FVec Ideal S160000 .f32) :
    shapeCast S64x160000
        (G0 (shapeCast S64x10000x16 H shapeCasts_S64x160000_S64x10000x16)
          (shapeCast S10000x16 b_in shapeCasts_S160000_S10000x16)
          (shapeCast S10000x1 gamma shapeCasts_S10000_S10000x1)
          (shapeCast S10000x1 beta shapeCasts_S10000_S10000x1)
          (shapeCast S10000x16 mask shapeCasts_S160000_S10000x16))
        shapeCasts_S64x10000x16_S64x160000
      = Cert.Spec.mid (F := Ideal) H b_in gamma beta mask := by
  funext j
  obtain ⟨b, col, rfl⟩ : ∃ (b : Fin 64) (col : Fin 160000), j = ix2 b col := ⟨j 0, j 1, eq_ix2 j⟩
  obtain ⟨n, c, rfl⟩ := exists_hcol col
  refine (flat_apply _ b n c).trans ?_
  refine Eq.trans ?_ (Cert.Spec.mid_apply H b_in gamma beta mask b n c).symm
  show g0 _ _ _ _ _ b n c = _
  unfold g0
  have hr : (fun k : Fin 16 => shapeCast S64x10000x16 H shapeCasts_S64x160000_S64x10000x16 (ix3 b n k)
        + shapeCast S10000x16 b_in shapeCasts_S160000_S10000x16 (ix2 n k))
      = fun k => H (ix2 b (Cert.Spec.hcol n k)) + b_in (ix1 (Cert.Spec.hcol n k)) :=
    funext fun k => by rw [group3_apply, group2_apply]
  rw [hr, col1_apply, col1_apply, group2_apply]

/-! ## The second region's array is the specification's last step -/

theorem bridge_fin (y : FVec Ideal S64x100000 .f32) (b : FVec Ideal S100000 .f32) (x : FVec Ideal S64x100000 .f32) :
    G1 y b x = Cert.Spec.fin (F := Ideal) y b x := by
  funext i
  obtain ⟨r, e, rfl⟩ : ∃ (r : Fin 64) (e : Fin 100000), i = ix2 r e := ⟨i 0, i 1, eq_ix2 i⟩
  unfold Cert.Spec.fin
  rw [addf_apply, addf_apply]
  show (y (ix2 r e) + b (ix1 e)) + x (ix2 r e) = _
  refine congrArg (fun s => (y (ix2 r e) + s) + x (ix2 r e)) (Eq.symm ?_)
  refine (broadcastInDim_apply _ _ _ (ix2 r e) (ix2 (0 : Fin 1) e) (fun a => ?_)).trans ?_
  · match a with
    | ⟨0, _⟩ => rfl
    | ⟨1, _⟩ => rfl
  · refine broadcastInDim_apply _ _ _ (ix2 (0 : Fin 1) e) (ix1 e) (fun a => ?_)
    match a with
    | ⟨0, _⟩ => rfl

end Cert.KernelIdeal.Val

end
-- ==== Proof.KRun.lean ====
/-
  The kernel program's run, read as the specification. The frame run names the result buffer at the last
  boundary's contents; those contents are `kout` of the launch arrays; and `kout` is the specification's `out`:
  the regrouped cells of the first region are the reference's middle chain entry by entry, and the second
  region's sum is the reference's last two additions.
-/
import proofs.«103248_j69870527971810_2_alg».proof.Proof.FrameVal
import proofs.«103248_j69870527971810_2_alg».proof.Proof.Chain
import proofs.«103248_j69870527971810_2_alg».proof.Proof.BodyApply
import proofs.«103248_j69870527971810_2_alg».proof.Proof.Bridge

noncomputable section

namespace Cert.KernelIdeal.Val

open Cert.KernelIdeal Cert.KernelIdeal.Gen Idealize.ShloMosaic Idealize.ShloMosaic.TcCoe Idealize.SL.Sem

/-- The kernel program's function of its arguments is the specification's. -/
theorem kout_eq (a0 : FVec Ideal S64x100000 .f32) (a1 : FVec Ideal S1600000 .f32) (a2 : FVec Ideal S160000 .f32)
    (a3 : FVec Ideal S1600000 .f32) (a4 : FVec Ideal S100000 .f32) (a5 a6 : FVec Ideal S10000 .f32)
    (a7 : FVec Ideal S160000 .f32) (a8 a9 a10 a11 : IVec S1600000 32) :
    kout a0 a1 a2 a3 a4 a5 a6 a7 a8 a9 a10 a11 = Cert.Spec.out (F := Ideal) a0 a1 a2 a3 a4 a5 a6 a7 a8 a9 a10 a11 := by
  unfold kout Cert.Spec.out
  rw [bridge_fin, bridge_mid]

/-- Every weakly fair execution of the idealized kernel program terminates with the result array at the
    specification of the launch arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37)
        = Cert.Spec.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono
    (fun r h c => ⟨((h c).1.trans (W4_v37 m ρ Cert.BodyApply.out0_5_apply Cert.BodyApply.out1_3_apply c)).trans (kout_eq _ _ _ _ _ _ _ _ _ _ _ _), (h c).2⟩)
    (frame_val m ρ)

end Cert.KernelIdeal.Val

end
-- ==== Proof.RefOps.lean ====
/-
  The reference program as one straight line of host operations.

  The program is a chain of whole-array operations with two outlined functions (the variance, which itself calls a
  three-way select, and ELU, which calls two selects). A call means its callee's body on the operands, so the line
  below lists the callees' operations in place, each over the buffers that call names. The line is cut into stretches
  that each compute one stage of the specification: the first sparse layer, the bias and regrouping, the channel mean,
  the channel variance, the normalisation with its affine map, ELU, the mask, the second sparse layer (in two halves:
  the program is given as two parts run in order, and the boundary between them falls inside this layer) and the closing bias and residual.
  `main_eq` says the program is exactly this line; the remaining facts are what the run theorem for a straight line
  asks of it: nothing is scoped, every operation touches only this core's buffers, and every operation determines
  what it writes.
-/
import proofs.«103248_j69870527971810_2_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The first sparse layer: wrap the source indices, gather the source columns, scale by the edge weights, scatter-add into the destination columns of a zero array, transpose back. -/
def opsLin1 : List (HloOp τ sig (Elt F)) :=
  [ StableHlo.nullary main_c (constantI S_ 32 0#32),
    StableHlo.unary main_c main_v0 (broadcastInDim S1600000 ![] bcast_S_S1600000 : (⟨S_, .i32⟩ : BufTy).Contents (Elt F) → (⟨S1600000, .i32⟩ : BufTy).Contents (Elt F)),
    StableHlo.binary main_arg8 main_v0 main_v1 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v2 (broadcastInDim S1600000 ![] bcast_S_S1600000 : (⟨S_, .i32⟩ : BufTy).Contents (Elt F) → (⟨S1600000, .i32⟩ : BufTy).Contents (Elt F)),
    StableHlo.binary main_arg8 main_v2 main_v3 (addi : (⟨S1600000, .i32⟩ : BufTy).Contents (Elt F) → (⟨S1600000, .i32⟩ : BufTy).Contents (Elt F) → (⟨S1600000, .i32⟩ : BufTy).Contents (Elt F)),
    StableHlo.ternary main_v1 main_v3 main_arg8 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v4 main_v5 (broadcastInDim S1600000x1 ![0] bcast_S1600000_S1600000x1_0 : (⟨S1600000, .i32⟩ : BufTy).Contents (Elt F) → (⟨S1600000x1, .i32⟩ : BufTy).Contents (Elt F)),
    StableHlo.binary main_arg0 main_v5 main_v6 ((fun x i => Host.gather gather_S64x100000_S1600000x1_S64x1600000_0_1_n_n_1_1_641 x i) : (⟨S64x100000, .f32⟩ : BufTy).Contents (Elt F) → (⟨S1600000x1, .i32⟩ : BufTy).Contents (Elt F) → (⟨S64x1600000, .f32⟩ : BufTy).Contents (Elt F)),
    StableHlo.unary main_arg1 main_v7 (broadcastInDim S1x1600000 ![1] bcast_S1600000_S1x1600000_1 : (⟨S1600000, .f32⟩ : BufTy).Contents (Elt F) → (⟨S1x1600000, .f32⟩ : BufTy).Contents (Elt F)),
    StableHlo.unary main_v7 main_v8 (broadcastInDim S64x1600000 ![0, 1] bcast_S1x1600000_S64x1600000_0_1 : (⟨S1x1600000, .f32⟩ : BufTy).Contents (Elt F) → (⟨S64x1600000, .f32⟩ : BufTy).Contents (Elt F)),
    StableHlo.binary main_v6 main_v8 main_v9 (mulf : (⟨S64x1600000, .f32⟩ : BufTy).Contents (Elt F) → (⟨S64x1600000, .f32⟩ : BufTy).Contents (Elt F) → (⟨S64x1600000, .f32⟩ : BufTy).Contents (Elt F)),
    StableHlo.unary main_v9 main_v10 ((transpose S1600000x64 [1, 0] · transposes_S64x1600000_S1600000x64_1_0) : (⟨S64x1600000, .f32⟩ : BufTy).Contents (Elt F) → (⟨S1600000x64, .f32⟩ : BufTy).Contents (Elt F)),
    StableHlo.nullary main_cst (constant S_ .f32 0x00000000#32),
    StableHlo.unary main_cst main_v11 (broadcastInDim S160000x64 ![] bcast_S_S160000x64 : (⟨S_, .f32⟩ : BufTy).Contents (Elt F) → (⟨S160000x64, .f32⟩ : BufTy).Contents (Elt F)),
    StableHlo.unary main_arg9 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S160000x64_S1600000x1_S1600000x64_1_0_0_1 x i u) : (⟨S160000x64, .f32⟩ : BufTy).Contents (Elt F) → (⟨S1600000x1, .i32⟩ : BufTy).Contents (Elt F) → (⟨S1600000x64, .f32⟩ : BufTy).Contents (Elt F) → (⟨S160000x64, .f32⟩ : BufTy).Contents (Elt F)),
    StableHlo.unary main_v13 main_v14 ((transpose S64x160000 [1, 0] · transposes_S160000x64_S64x160000_1_0) : (⟨S160000x64, .f32⟩ : BufTy).Contents (Elt F) → (⟨S64x160000, .f32⟩ : BufTy).Contents (Elt F)) ]

/-- Add the hidden bias along every batch row and regroup as [batch, node, channel]. -/
def opsHb : List (HloOp τ sig (Elt F)) :=
  [ StableHlo.unary main_arg2 main_v15 (broadcastInDim S1x160000 ![1] bcast_S160000_S1x160000_1 : (⟨S160000, .f32⟩ : BufTy).Contents (Elt F) → (⟨S1x160000, .f32⟩ : BufTy).Contents (Elt F)),
    StableHlo.unary main_v15 main_v16 (broadcastInDim S64x160000 ![0, 1] bcast_S1x160000_S64x160000_0_1 : (⟨S1x160000, .f32⟩ : BufTy).Contents (Elt F) → (⟨S64x160000, .f32⟩ : BufTy).Contents (Elt F)),
    StableHlo.binary main_v14 main_v16 main_v17 (addf : (⟨S64x160000, .f32⟩ : BufTy).Contents (Elt F) → (⟨S64x160000, .f32⟩ : BufTy).Contents (Elt F) → (⟨S64x160000, .f32⟩ : BufTy).Contents (Elt F)),
    StableHlo.reshape main_v17 main_v18 rfl shapeCasts_S64x160000_S64x10000x16 ]

/-- A node's channel mean: the channel sum from zero over the literal 16. -/
def opsMean : List (HloOp τ sig (Elt F)) :=
  [ StableHlo.nullary main_cst_1 (constant S_ .f32 0x00000000#32),
    StableHlo.binary main_v18 main_cst_1 main_v19 ((fun x v => Host.reduceAdd x v reducesTo_S64x10000x16_S64x10000_d2 h_S_) : (⟨S64x10000x16, .f32⟩ : BufTy).Contents (Elt F) → (⟨S_, .f32⟩ : BufTy).Contents (Elt F) → (⟨S64x10000, .f32⟩ : BufTy).Contents (Elt F)),
    StableHlo.unary main_v19 main_v20 (broadcastInDim S64x10000x1 ![0, 1] bcast_S64x10000_S64x10000x1_0_1 : (⟨S64x10000, .f32⟩ : BufTy).Contents (Elt F) → (⟨S64x10000x1, .f32⟩ : BufTy).Contents (Elt F)),
    StableHlo.nullary main_cst_2 (constant S_ .f32 0x41800000#32),
    StableHlo.unary main_cst_2 main_v21 (broadcastInDim S64x10000x1 ![] bcast_S_S64x10000x1 : (⟨S_, .f32⟩ : BufTy).Contents (Elt F) → (⟨S64x10000x1, .f32⟩ : BufTy).Contents (Elt F)),
    StableHlo.binary main_v20 main_v21 main_v22 (Host.divf : (⟨S64x10000x1, .f32⟩ : BufTy).Contents (Elt F) → (⟨S64x10000x1, .f32⟩ : BufTy).Contents (Elt F) → (⟨S64x10000x1, .f32⟩ : BufTy).Contents (Elt F)) ]

/-- A node's channel variance (the correction constant, then the variance function's own operations with its select inlined): the mean again, the squared deviations summed, divided by 16 less the correction, under the guard that this divisor be positive. -/
def opsVar : List (HloOp τ sig (Elt F)) :=
  [ StableHlo.nullary main_c_3 (constantI S_ 32 0#32),
    StableHlo.TRef.nullary main_call0.cst (constant S_ .f32 0x00000000#32),
    StableHlo.TRef.binary (.of main_v18 : StableHlo.TRef sig ⟨S64x10000x16, .f32⟩) main_call0.cst main_call0.v0 (fun x v => Host.reduceAdd x v reducesTo_S64x10000x16_S64x10000_d2 h_S_),
    StableHlo.TRef.unary main_call0.v0 main_call0.v1 (broadcastInDim S64x10000x1 ![0, 1] bcast_S64x10000_S64x10000x1_0_1),
    StableHlo.TRef.nullary main_call0.cst_0 (constant S_ .f32 0x41800000#32),
    StableHlo.TRef.unary main_call0.cst_0 main_call0.v2 (broadcastInDim S64x10000x1 ![] bcast_S_S64x10000x1),
    StableHlo.TRef.binary main_call0.v1 main_call0.v2 main_call0.v3 Host.divf,
    StableHlo.TRef.unary main_call0.v3 main_call0.v4 (broadcastInDim S64x10000x16 ![0, 1, 2] bcast_S64x10000x1_S64x10000x16_0_1_2),
    StableHlo.TRef.binary (.of main_v18 : StableHlo.TRef sig ⟨S64x10000x16, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x41800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S64x10000x16_S64x10000_d2 h_S_),
    StableHlo.TRef.unary main_call0.v9 main_call0.v10 (broadcastInDim S64x10000x1 ![0, 1] bcast_S64x10000_S64x10000x1_0_1),
    StableHlo.TRef.unary main_call0.v8 main_call0.v11 (broadcastInDim S64x10000x1 ![] bcast_S_S64x10000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64x10000x1 ![] bcast_S_S64x10000x1),
    StableHlo.TRef.ternary main_call0.v13 main_call0.v12 main_call0.call0.v1 main_call0.call0.v2 (fun p a b => select (broadcastInDim S64x10000x1 ![] bcast_S_S64x10000x1 p) a b) ]

/-- Centre, scale by the reciprocal root of variance plus epsilon, map by gamma and beta laid along batch and channel, flatten back to [batch, hidden unit]. -/
def opsNorm : List (HloOp τ sig (Elt F)) :=
  [ StableHlo.unary main_v22 main_v24 (broadcastInDim S64x10000x16 ![0, 1, 2] bcast_S64x10000x1_S64x10000x16_0_1_2 : (⟨S64x10000x1, .f32⟩ : BufTy).Contents (Elt F) → (⟨S64x10000x16, .f32⟩ : BufTy).Contents (Elt F)),
    StableHlo.binary main_v18 main_v24 main_v25 (subf : (⟨S64x10000x16, .f32⟩ : BufTy).Contents (Elt F) → (⟨S64x10000x16, .f32⟩ : BufTy).Contents (Elt F) → (⟨S64x10000x16, .f32⟩ : BufTy).Contents (Elt F)),
    StableHlo.nullary main_cst_4 (constant S_ .f32 0x3727C5AC#32),
    StableHlo.unary main_cst_4 main_v26 (broadcastInDim S64x10000x1 ![] bcast_S_S64x10000x1 : (⟨S_, .f32⟩ : BufTy).Contents (Elt F) → (⟨S64x10000x1, .f32⟩ : BufTy).Contents (Elt F)),
    StableHlo.binary main_v23 main_v26 main_v27 (addf : (⟨S64x10000x1, .f32⟩ : BufTy).Contents (Elt F) → (⟨S64x10000x1, .f32⟩ : BufTy).Contents (Elt F) → (⟨S64x10000x1, .f32⟩ : BufTy).Contents (Elt F)),
    StableHlo.unary main_v27 main_v28 (Host.rsqrt : (⟨S64x10000x1, .f32⟩ : BufTy).Contents (Elt F) → (⟨S64x10000x1, .f32⟩ : BufTy).Contents (Elt F)),
    StableHlo.unary main_v28 main_v29 (broadcastInDim S64x10000x16 ![0, 1, 2] bcast_S64x10000x1_S64x10000x16_0_1_2 : (⟨S64x10000x1, .f32⟩ : BufTy).Contents (Elt F) → (⟨S64x10000x16, .f32⟩ : BufTy).Contents (Elt F)),
    StableHlo.binary main_v25 main_v29 main_v30 (mulf : (⟨S64x10000x16, .f32⟩ : BufTy).Contents (Elt F) → (⟨S64x10000x16, .f32⟩ : BufTy).Contents (Elt F) → (⟨S64x10000x16, .f32⟩ : BufTy).Contents (Elt F)),
    StableHlo.unary main_arg5 main_v31 (broadcastInDim S1x10000x1 ![1] bcast_S10000_S1x10000x1_1 : (⟨S10000, .f32⟩ : BufTy).Contents (Elt F) → (⟨S1x10000x1, .f32⟩ : BufTy).Contents (Elt F)),
    StableHlo.unary main_v31 main_v32 (broadcastInDim S64x10000x16 ![0, 1, 2] bcast_S1x10000x1_S64x10000x16_0_1_2 : (⟨S1x10000x1, .f32⟩ : BufTy).Contents (Elt F) → (⟨S64x10000x16, .f32⟩ : BufTy).Contents (Elt F)),
    StableHlo.binary main_v32 main_v30 main_v33 (mulf : (⟨S64x10000x16, .f32⟩ : BufTy).Contents (Elt F) → (⟨S64x10000x16, .f32⟩ : BufTy).Contents (Elt F) → (⟨S64x10000x16, .f32⟩ : BufTy).Contents (Elt F)),
    StableHlo.unary main_arg6 main_v34 (broadcastInDim S1x10000x1 ![1] bcast_S10000_S1x10000x1_1 : (⟨S10000, .f32⟩ : BufTy).Contents (Elt F) → (⟨S1x10000x1, .f32⟩ : BufTy).Contents (Elt F)),
    StableHlo.unary main_v34 main_v35 (broadcastInDim S64x10000x16 ![0, 1, 2] bcast_S1x10000x1_S64x10000x16_0_1_2 : (⟨S1x10000x1, .f32⟩ : BufTy).Contents (Elt F) → (⟨S64x10000x16, .f32⟩ : BufTy).Contents (Elt F)),
    StableHlo.binary main_v33 main_v35 main_v36 (addf : (⟨S64x10000x16, .f32⟩ : BufTy).Contents (Elt F) → (⟨S64x10000x16, .f32⟩ : BufTy).Contents (Elt F) → (⟨S64x10000x16, .f32⟩ : BufTy).Contents (Elt F)),
    StableHlo.reshape main_v36 main_v37 rfl shapeCasts_S64x10000x16_S64x160000 ]

/-- ELU (its two selects inlined): the argument where positive, else one times expm1 of the argument made safe. -/
def opsElu : List (HloOp τ sig (Elt F)) :=
  [ StableHlo.TRef.nullary main_call1.cst (constant S_ .f32 0x00000000#32),
    StableHlo.TRef.unary main_call1.cst main_call1.v0 (broadcastInDim S64x160000 ![] bcast_S_S64x160000),
    StableHlo.TRef.binary (.of main_v37 : StableHlo.TRef sig ⟨S64x160000, .f32⟩) main_call1.v0 main_call1.v1 (cmpf .ogt),
    StableHlo.TRef.nullary main_call1.cst_0 (constant S_ .f32 0x00000000#32),
    StableHlo.TRef.unary main_call1.cst_0 main_call1.v2 (broadcastInDim S64x160000 ![] bcast_S_S64x160000),
    StableHlo.TRef.binary (.of main_v37 : StableHlo.TRef sig ⟨S64x160000, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S64x160000 ![] bcast_S_S64x160000),
    StableHlo.TRef.ternary main_call1.v3 main_call1.call0.v1 (.of main_v37 : StableHlo.TRef sig ⟨S64x160000, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S64x160000 ![] bcast_S_S64x160000),
    StableHlo.TRef.binary main_call1.v6 main_call1.v5 main_call1.v7 mulf,
    StableHlo.TRef.ternary main_call1.v1 (.of main_v37 : StableHlo.TRef sig ⟨S64x160000, .f32⟩) main_call1.v7 main_call1.call1.v0 select ]

/-- Multiply by the mask laid along every batch row. -/
def opsMask : List (HloOp τ sig (Elt F)) :=
  [ StableHlo.unary main_arg7 main_v39 (broadcastInDim S1x160000 ![1] bcast_S160000_S1x160000_1 : (⟨S160000, .f32⟩ : BufTy).Contents (Elt F) → (⟨S1x160000, .f32⟩ : BufTy).Contents (Elt F)),
    StableHlo.unary main_v39 main_v40 (broadcastInDim S64x160000 ![0, 1] bcast_S1x160000_S64x160000_0_1 : (⟨S1x160000, .f32⟩ : BufTy).Contents (Elt F) → (⟨S64x160000, .f32⟩ : BufTy).Contents (Elt F)),
    StableHlo.binary main_v38 main_v40 main_v41 (mulf : (⟨S64x160000, .f32⟩ : BufTy).Contents (Elt F) → (⟨S64x160000, .f32⟩ : BufTy).Contents (Elt F) → (⟨S64x160000, .f32⟩ : BufTy).Contents (Elt F)) ]

/-- The second sparse layer, first half: wrap the source indices, gather the hidden columns, lay the edge weights along the batch. -/
def opsLin2a : List (HloOp τ sig (Elt F)) :=
  [ StableHlo.nullary main_c_5 (constantI S_ 32 0#32),
    StableHlo.unary main_c_5 main_v42 (broadcastInDim S1600000 ![] bcast_S_S1600000 : (⟨S_, .i32⟩ : BufTy).Contents (Elt F) → (⟨S1600000, .i32⟩ : BufTy).Contents (Elt F)),
    StableHlo.binary main_arg10 main_v42 main_v43 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 160000#32),
    StableHlo.unary main_c_6 main_v44 (broadcastInDim S1600000 ![] bcast_S_S1600000 : (⟨S_, .i32⟩ : BufTy).Contents (Elt F) → (⟨S1600000, .i32⟩ : BufTy).Contents (Elt F)),
    StableHlo.binary main_arg10 main_v44 main_v45 (addi : (⟨S1600000, .i32⟩ : BufTy).Contents (Elt F) → (⟨S1600000, .i32⟩ : BufTy).Contents (Elt F) → (⟨S1600000, .i32⟩ : BufTy).Contents (Elt F)),
    StableHlo.ternary main_v43 main_v45 main_arg10 main_v46 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v46 main_v47 (broadcastInDim S1600000x1 ![0] bcast_S1600000_S1600000x1_0 : (⟨S1600000, .i32⟩ : BufTy).Contents (Elt F) → (⟨S1600000x1, .i32⟩ : BufTy).Contents (Elt F)),
    StableHlo.binary main_v41 main_v47 main_v48 ((fun x i => Host.gather gather_S64x160000_S1600000x1_S64x1600000_0_1_n_n_1_1_641 x i) : (⟨S64x160000, .f32⟩ : BufTy).Contents (Elt F) → (⟨S1600000x1, .i32⟩ : BufTy).Contents (Elt F) → (⟨S64x1600000, .f32⟩ : BufTy).Contents (Elt F)),
    StableHlo.unary main_arg3 main_v49 (broadcastInDim S1x1600000 ![1] bcast_S1600000_S1x1600000_1 : (⟨S1600000, .f32⟩ : BufTy).Contents (Elt F) → (⟨S1x1600000, .f32⟩ : BufTy).Contents (Elt F)),
    StableHlo.unary main_v49 main_v50 (broadcastInDim S64x1600000 ![0, 1] bcast_S1x1600000_S64x1600000_0_1 : (⟨S1x1600000, .f32⟩ : BufTy).Contents (Elt F) → (⟨S64x1600000, .f32⟩ : BufTy).Contents (Elt F)) ]

/-- The second sparse layer, second half: scale by the weights, scatter-add into the destination columns of a zero array, transpose back. -/
def opsLin2b : List (HloOp τ sig (Elt F)) :=
  [ StableHlo.binary main_v48 main_v50 main_v51 (mulf : (⟨S64x1600000, .f32⟩ : BufTy).Contents (Elt F) → (⟨S64x1600000, .f32⟩ : BufTy).Contents (Elt F) → (⟨S64x1600000, .f32⟩ : BufTy).Contents (Elt F)),
    StableHlo.unary main_v51 main_v52 ((transpose S1600000x64 [1, 0] · transposes_S64x1600000_S1600000x64_1_0) : (⟨S64x1600000, .f32⟩ : BufTy).Contents (Elt F) → (⟨S1600000x64, .f32⟩ : BufTy).Contents (Elt F)),
    StableHlo.nullary main_cst_7 (constant S_ .f32 0x00000000#32),
    StableHlo.unary main_cst_7 main_v53 (broadcastInDim S100000x64 ![] bcast_S_S100000x64 : (⟨S_, .f32⟩ : BufTy).Contents (Elt F) → (⟨S100000x64, .f32⟩ : BufTy).Contents (Elt F)),
    StableHlo.unary main_arg11 main_v54 (broadcastInDim S1600000x1 ![0] bcast_S1600000_S1600000x1_0 : (⟨S1600000, .i32⟩ : BufTy).Contents (Elt F) → (⟨S1600000x1, .i32⟩ : BufTy).Contents (Elt F)),
    StableHlo.ternary main_v53 main_v54 main_v52 main_v55 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v55 main_v56 ((transpose S64x100000 [1, 0] · transposes_S100000x64_S64x100000_1_0) : (⟨S100000x64, .f32⟩ : BufTy).Contents (Elt F) → (⟨S64x100000, .f32⟩ : BufTy).Contents (Elt F)) ]

/-- Add the output bias along every batch row, then the residual input. -/
def opsFin : List (HloOp τ sig (Elt F)) :=
  [ StableHlo.unary main_arg4 main_v57 (broadcastInDim S1x100000 ![1] bcast_S100000_S1x100000_1 : (⟨S100000, .f32⟩ : BufTy).Contents (Elt F) → (⟨S1x100000, .f32⟩ : BufTy).Contents (Elt F)),
    StableHlo.unary main_v57 main_v58 (broadcastInDim S64x100000 ![0, 1] bcast_S1x100000_S64x100000_0_1 : (⟨S1x100000, .f32⟩ : BufTy).Contents (Elt F) → (⟨S64x100000, .f32⟩ : BufTy).Contents (Elt F)),
    StableHlo.binary main_v56 main_v58 main_v59 (addf : (⟨S64x100000, .f32⟩ : BufTy).Contents (Elt F) → (⟨S64x100000, .f32⟩ : BufTy).Contents (Elt F) → (⟨S64x100000, .f32⟩ : BufTy).Contents (Elt F)),
    StableHlo.binary main_v59 main_arg0 main_v60 (addf : (⟨S64x100000, .f32⟩ : BufTy).Contents (Elt F) → (⟨S64x100000, .f32⟩ : BufTy).Contents (Elt F) → (⟨S64x100000, .f32⟩ : BufTy).Contents (Elt F)) ]

/-- The first part of the program: everything up to the weights of the second layer laid along the batch. -/
abbrev ops0 : List (HloOp τ sig (Elt F)) := opsLin1 ++ (opsHb ++ (opsMean ++ (opsVar ++ (opsNorm ++ (opsElu ++ (opsMask ++ opsLin2a))))))

/-- The second part: the rest of the second layer and the closing additions. -/
abbrev ops1 : List (HloOp τ sig (Elt F)) := opsLin2b ++ opsFin

/-- The whole program, in order. -/
abbrev ops : List (HloOp τ sig (Elt F)) := ops0 ++ ops1

/-! ## The program is this line -/

/-- The first part is its stretches in order: the outlined functions' definitions unfold at their calls, and
    sequencing re-associates by computation. -/
theorem part0_eq (c : Dev nD) : main_part0 (F := F) c = seq ops0 := rfl

/-- The second part likewise. -/
theorem part1_eq (c : Dev nD) : main_part1 (F := F) c = seq ops1 := rfl

/-- The program runs its two parts in order, and two lines in order are their concatenation. -/
theorem main_eq (c : Dev nD) : main (F := F) c = seq ops := by
  rw [seq_append, ← part0_eq c, ← part1_eq c]
  rfl

/-! ## What the run of a straight line asks of it -/

theorem scopedRefs_eq : (Finset.univ.filter fun b : Ref sig .tc => b.isScoped) = ∅ := by decide
theorem scopedSems_eq : (Finset.univ.filter fun sm : SemLoc sig => sm.isScoped .tc) = ∅ := by decide

/-- A line all of whose operations touch only this core's buffers and determine what they write. -/
def Good (l : List (HloOp τ sig (Elt F))) : Prop :=
  (l.Forall fun op => op.bufs ⊆ tcRefs τ sig) ∧ ∀ op ∈ l, op.fresh = ∅

/-- Two such lines in order are one. -/
theorem Good.append {l₁ l₂ : List (HloOp τ sig (Elt F))} (h₁ : Good l₁) (h₂ : Good l₂) : Good (l₁ ++ l₂) :=
  ⟨List.forall_iff_forall_mem.mpr fun op h =>
      (List.mem_append.mp h).elim (List.forall_iff_forall_mem.mp h₁.1 op) (List.forall_iff_forall_mem.mp h₂.1 op),
    fun op h => (List.mem_append.mp h).elim (h₁.2 op) (h₂.2 op)⟩

theorem good_opsLin1 : Good (opsLin1 : List (HloOp τ sig (Elt F))) := by
  unfold opsLin1
  exact ⟨⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., nullary_bufs_sub .., unary_bufs_sub .., unary_bufs_sub .., ternary_bufs_sub .., unary_bufs_sub ..⟩,
    by intro _ h; (repeat (cases h with | head => rfl | tail _ h => ?_)); exact nomatch h⟩

theorem good_opsHb : Good (opsHb : List (HloOp τ sig (Elt F))) := by
  unfold opsHb
  exact ⟨⟨unary_bufs_sub .., unary_bufs_sub .., binary_bufs_sub .., reshape_bufs_sub ..⟩,
    by intro _ h; (repeat (cases h with | head => rfl | tail _ h => ?_)); exact nomatch h⟩

theorem good_opsMean : Good (opsMean : List (HloOp τ sig (Elt F))) := by
  unfold opsMean
  exact ⟨⟨nullary_bufs_sub .., binary_bufs_sub .., unary_bufs_sub .., nullary_bufs_sub .., unary_bufs_sub .., binary_bufs_sub ..⟩,
    by intro _ h; (repeat (cases h with | head => rfl | tail _ h => ?_)); exact nomatch h⟩

theorem good_opsVar : Good (opsVar : List (HloOp τ sig (Elt F))) := by
  unfold opsVar
  exact ⟨⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩,
    by intro _ h; (repeat (cases h with | head => rfl | tail _ h => ?_)); exact nomatch h⟩

theorem good_opsNorm : Good (opsNorm : List (HloOp τ sig (Elt F))) := by
  unfold opsNorm
  exact ⟨⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., reshape_bufs_sub ..⟩,
    by intro _ h; (repeat (cases h with | head => rfl | tail _ h => ?_)); exact nomatch h⟩

theorem good_opsElu : Good (opsElu : List (HloOp τ sig (Elt F))) := by
  unfold opsElu
  exact ⟨⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩,
    by intro _ h; (repeat (cases h with | head => rfl | tail _ h => ?_)); exact nomatch h⟩

theorem good_opsMask : Good (opsMask : List (HloOp τ sig (Elt F))) := by
  unfold opsMask
  exact ⟨⟨unary_bufs_sub .., unary_bufs_sub .., binary_bufs_sub ..⟩,
    by intro _ h; (repeat (cases h with | head => rfl | tail _ h => ?_)); exact nomatch h⟩

theorem good_opsLin2a : Good (opsLin2a : List (HloOp τ sig (Elt F))) := by
  unfold opsLin2a
  exact ⟨⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub ..⟩,
    by intro _ h; (repeat (cases h with | head => rfl | tail _ h => ?_)); exact nomatch h⟩

theorem good_opsLin2b : Good (opsLin2b : List (HloOp τ sig (Elt F))) := by
  unfold opsLin2b
  exact ⟨⟨binary_bufs_sub .., unary_bufs_sub .., nullary_bufs_sub .., unary_bufs_sub .., unary_bufs_sub .., ternary_bufs_sub .., unary_bufs_sub ..⟩,
    by intro _ h; (repeat (cases h with | head => rfl | tail _ h => ?_)); exact nomatch h⟩

theorem good_opsFin : Good (opsFin : List (HloOp τ sig (Elt F))) := by
  unfold opsFin
  exact ⟨⟨unary_bufs_sub .., unary_bufs_sub .., binary_bufs_sub .., binary_bufs_sub ..⟩,
    by intro _ h; (repeat (cases h with | head => rfl | tail _ h => ?_)); exact nomatch h⟩

/-- The whole program is such a line. -/
theorem good_ops : Good (ops : List (HloOp τ sig (Elt F))) :=
  (good_opsLin1.append (good_opsHb.append (good_opsMean.append (good_opsVar.append (good_opsNorm.append
    (good_opsElu.append (good_opsMask.append good_opsLin2a))))))).append (good_opsLin2b.append good_opsFin)

end Cert.RefSide

end
-- ==== Proof.RefRun.lean ====
/-
  The reference program's run, read back as the specification.

  A straight line of host operations leaves every buffer at the fold of the operations' results over the launch
  contents. The fold is read stretch by stretch: from ANY contents, each stretch leaves its output buffer at one
  stage of the specification applied to the contents of the buffers it reads, and leaves every buffer it does not
  write as it was. Chaining the stretches, the result buffer holds the specification's `out` of the twelve
  arguments' launch contents; and no operation writes an argument, so the arguments end as they began.
-/
import proofs.«103248_j69870527971810_2_alg».proof.Proof.RefOps
import proofs.«103248_j69870527971810_2_alg».proof.Proof.Spec

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The contents after two lines in order are those after the second, from those after the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## What each stretch writes, and that it leaves the rest alone -/

/-- The buffers `opsLin1` writes. -/
abbrev opsLin1_W : List (Ref sig .tc) := [main_c, main_v0, main_v1, main_c_0, main_v2, main_v3, main_v4, main_v5, main_v6, main_v7, main_v8, main_v9, main_v10, main_cst, main_v11, main_v12, main_v13, main_v14]
theorem opsLin1_writes : (opsLin1 : List (HloOp τ sig (Elt F))).Forall fun op =>
    op.writes ⊆ (opsLin1_W.map (Proc.devRef (τ := τ) .tc)).toFinset := by
  simp only [opsLin1, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsLin1_keep (V : Valuation τ sig (Elt F)) {r : Ref sig .tc} (h : r ∉ opsLin1_W) :
    after opsLin1 V (no_index (Proc.devRef .tc r)) = V (Proc.devRef .tc r) :=
  after_of_writes_sub opsLin1 V opsLin1_writes h

/-- The buffers `opsHb` writes. -/
abbrev opsHb_W : List (Ref sig .tc) := [main_v15, main_v16, main_v17, main_v18]
theorem opsHb_writes : (opsHb : List (HloOp τ sig (Elt F))).Forall fun op =>
    op.writes ⊆ (opsHb_W.map (Proc.devRef (τ := τ) .tc)).toFinset := by
  simp only [opsHb, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsHb_keep (V : Valuation τ sig (Elt F)) {r : Ref sig .tc} (h : r ∉ opsHb_W) :
    after opsHb V (no_index (Proc.devRef .tc r)) = V (Proc.devRef .tc r) :=
  after_of_writes_sub opsHb V opsHb_writes h

/-- The buffers `opsMean` writes. -/
abbrev opsMean_W : List (Ref sig .tc) := [main_cst_1, main_v19, main_v20, main_cst_2, main_v21, main_v22]
theorem opsMean_writes : (opsMean : List (HloOp τ sig (Elt F))).Forall fun op =>
    op.writes ⊆ (opsMean_W.map (Proc.devRef (τ := τ) .tc)).toFinset := by
  simp only [opsMean, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsMean_keep (V : Valuation τ sig (Elt F)) {r : Ref sig .tc} (h : r ∉ opsMean_W) :
    after opsMean V (no_index (Proc.devRef .tc r)) = V (Proc.devRef .tc r) :=
  after_of_writes_sub opsMean V opsMean_writes h

/-- The buffers `opsVar` writes. -/
abbrev opsVar_W : List (Ref sig .tc) := [main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v23]
theorem opsVar_writes : (opsVar : List (HloOp τ sig (Elt F))).Forall fun op =>
    op.writes ⊆ (opsVar_W.map (Proc.devRef (τ := τ) .tc)).toFinset := by
  simp only [opsVar, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsVar_keep (V : Valuation τ sig (Elt F)) {r : Ref sig .tc} (h : r ∉ opsVar_W) :
    after opsVar V (no_index (Proc.devRef .tc r)) = V (Proc.devRef .tc r) :=
  after_of_writes_sub opsVar V opsVar_writes h

/-- The buffers `opsNorm` writes. -/
abbrev opsNorm_W : List (Ref sig .tc) := [main_v24, main_v25, main_cst_4, main_v26, main_v27, main_v28, main_v29, main_v30, main_v31, main_v32, main_v33, main_v34, main_v35, main_v36, main_v37]
theorem opsNorm_writes : (opsNorm : List (HloOp τ sig (Elt F))).Forall fun op =>
    op.writes ⊆ (opsNorm_W.map (Proc.devRef (τ := τ) .tc)).toFinset := by
  simp only [opsNorm, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsNorm_keep (V : Valuation τ sig (Elt F)) {r : Ref sig .tc} (h : r ∉ opsNorm_W) :
    after opsNorm V (no_index (Proc.devRef .tc r)) = V (Proc.devRef .tc r) :=
  after_of_writes_sub opsNorm V opsNorm_writes h

/-- The buffers `opsElu` writes. -/
abbrev opsElu_W : List (Ref sig .tc) := [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v38]
theorem opsElu_writes : (opsElu : List (HloOp τ sig (Elt F))).Forall fun op =>
    op.writes ⊆ (opsElu_W.map (Proc.devRef (τ := τ) .tc)).toFinset := by
  simp only [opsElu, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsElu_keep (V : Valuation τ sig (Elt F)) {r : Ref sig .tc} (h : r ∉ opsElu_W) :
    after opsElu V (no_index (Proc.devRef .tc r)) = V (Proc.devRef .tc r) :=
  after_of_writes_sub opsElu V opsElu_writes h

/-- The buffers `opsMask` writes. -/
abbrev opsMask_W : List (Ref sig .tc) := [main_v39, main_v40, main_v41]
theorem opsMask_writes : (opsMask : List (HloOp τ sig (Elt F))).Forall fun op =>
    op.writes ⊆ (opsMask_W.map (Proc.devRef (τ := τ) .tc)).toFinset := by
  simp only [opsMask, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsMask_keep (V : Valuation τ sig (Elt F)) {r : Ref sig .tc} (h : r ∉ opsMask_W) :
    after opsMask V (no_index (Proc.devRef .tc r)) = V (Proc.devRef .tc r) :=
  after_of_writes_sub opsMask V opsMask_writes h

/-- The buffers `opsLin2a` writes. -/
abbrev opsLin2a_W : List (Ref sig .tc) := [main_c_5, main_v42, main_v43, main_c_6, main_v44, main_v45, main_v46, main_v47, main_v48, main_v49, main_v50]
theorem opsLin2a_writes : (opsLin2a : List (HloOp τ sig (Elt F))).Forall fun op =>
    op.writes ⊆ (opsLin2a_W.map (Proc.devRef (τ := τ) .tc)).toFinset := by
  simp only [opsLin2a, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsLin2a_keep (V : Valuation τ sig (Elt F)) {r : Ref sig .tc} (h : r ∉ opsLin2a_W) :
    after opsLin2a V (no_index (Proc.devRef .tc r)) = V (Proc.devRef .tc r) :=
  after_of_writes_sub opsLin2a V opsLin2a_writes h

/-- The buffers `opsLin2b` writes. -/
abbrev opsLin2b_W : List (Ref sig .tc) := [main_v51, main_v52, main_cst_7, main_v53, main_v54, main_v55, main_v56]
theorem opsLin2b_writes : (opsLin2b : List (HloOp τ sig (Elt F))).Forall fun op =>
    op.writes ⊆ (opsLin2b_W.map (Proc.devRef (τ := τ) .tc)).toFinset := by
  simp only [opsLin2b, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsLin2b_keep (V : Valuation τ sig (Elt F)) {r : Ref sig .tc} (h : r ∉ opsLin2b_W) :
    after opsLin2b V (no_index (Proc.devRef .tc r)) = V (Proc.devRef .tc r) :=
  after_of_writes_sub opsLin2b V opsLin2b_writes h

/-- The buffers `opsFin` writes. -/
abbrev opsFin_W : List (Ref sig .tc) := [main_v57, main_v58, main_v59, main_v60]
theorem opsFin_writes : (opsFin : List (HloOp τ sig (Elt F))).Forall fun op =>
    op.writes ⊆ (opsFin_W.map (Proc.devRef (τ := τ) .tc)).toFinset := by
  simp only [opsFin, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsFin_keep (V : Valuation τ sig (Elt F)) {r : Ref sig .tc} (h : r ∉ opsFin_W) :
    after opsFin V (no_index (Proc.devRef .tc r)) = V (Proc.devRef .tc r) :=
  after_of_writes_sub opsFin V opsFin_writes h

/-! ## What each stretch computes, from any contents -/

attribute [local irreducible] Host.gather Host.scatterAdd Host.reduceAdd in
/-- The first sparse layer of the input, its weights and its two index vectors. -/
theorem opsLin1_out (V : Valuation τ sig (Elt F)) :
    after opsLin1 V (no_index (Proc.devRef .tc main_v14))
      = Spec.lin1 (V (Proc.devRef .tc main_arg0)) (V (Proc.devRef .tc main_arg1)) (V (Proc.devRef .tc main_arg8)) (V (Proc.devRef .tc main_arg9)) := by
  simp only [opsLin1]
  after_results_simp
  rfl

attribute [local irreducible] Host.gather Host.scatterAdd Host.reduceAdd in
/-- The biased hidden activations, regrouped. -/
theorem opsHb_out (V : Valuation τ sig (Elt F)) :
    after opsHb V (no_index (Proc.devRef .tc main_v18)) = Spec.hb (V (Proc.devRef .tc main_v14)) (V (Proc.devRef .tc main_arg2)) := by
  simp only [opsHb]
  after_results_simp
  rfl

attribute [local irreducible] Host.gather Host.scatterAdd Host.reduceAdd in
/-- The channel mean of the grouped activations. -/
theorem opsMean_out (V : Valuation τ sig (Elt F)) :
    after opsMean V (no_index (Proc.devRef .tc main_v22)) = Spec.mean3 (V (Proc.devRef .tc main_v18)) := by
  simp only [opsMean]
  after_results_simp
  rfl

attribute [local irreducible] Host.gather Host.scatterAdd Host.reduceAdd in
/-- The channel variance of the grouped activations. -/
theorem opsVar_out (V : Valuation τ sig (Elt F)) :
    after opsVar V (no_index (Proc.devRef .tc main_v23)) = Spec.var3 (V (Proc.devRef .tc main_v18)) := by
  simp only [opsVar]
  after_results_simp
  rfl

/-- The normalisation and affine map from the activations, a mean array and a variance array: the specification's
    `normed` once the two are the activations' own mean and variance. -/
def normedWith (h : FVec F S64x10000x16 .f32) (mu var : FVec F S64x10000x1 .f32) (gamma beta : FVec F S10000 .f32) :
    FVec F S64x10000x16 .f32 :=
  addf (mulf (Spec.perNode gamma)
      (mulf (subf h (broadcastInDim S64x10000x16 ![0, 1, 2] bcast_S64x10000x1_S64x10000x16_0_1_2 mu))
        (broadcastInDim S64x10000x16 ![0, 1, 2] bcast_S64x10000x1_S64x10000x16_0_1_2
          (Host.rsqrt (addf var
            (broadcastInDim S64x10000x1 ![] bcast_S_S64x10000x1 (constant S_ .f32 0x3727C5AC#32)))))))
    (Spec.perNode beta)

theorem normedWith_self (h : FVec F S64x10000x16 .f32) (gamma beta : FVec F S10000 .f32) :
    normedWith h (Spec.mean3 h) (Spec.var3 h) gamma beta = Spec.normed h gamma beta := rfl

attribute [local irreducible] Host.gather Host.scatterAdd Host.reduceAdd in
/-- The normalised, mapped activations, flattened. -/
theorem opsNorm_out (V : Valuation τ sig (Elt F)) :
    after opsNorm V (no_index (Proc.devRef .tc main_v37))
      = shapeCast S64x160000
          (normedWith (V (Proc.devRef .tc main_v18)) (V (Proc.devRef .tc main_v22)) (V (Proc.devRef .tc main_v23)) (V (Proc.devRef .tc main_arg5)) (V (Proc.devRef .tc main_arg6)))
          shapeCasts_S64x10000x16_S64x160000 := by
  simp only [opsNorm]
  after_results_simp
  rfl

attribute [local irreducible] Host.gather Host.scatterAdd Host.reduceAdd in
/-- ELU of the flattened activations. -/
theorem opsElu_out (V : Valuation τ sig (Elt F)) :
    after opsElu V (no_index (Proc.devRef .tc main_v38)) = Spec.elu (V (Proc.devRef .tc main_v37)) := by
  simp only [opsElu]
  after_results_simp
  rfl

attribute [local irreducible] Host.gather Host.scatterAdd Host.reduceAdd in
/-- The masked activations. -/
theorem opsMask_out (V : Valuation τ sig (Elt F)) :
    after opsMask V (no_index (Proc.devRef .tc main_v41))
      = mulf (V (Proc.devRef .tc main_v38))
          (broadcastInDim S64x160000 ![0, 1] bcast_S1x160000_S64x160000_0_1
            (broadcastInDim S1x160000 ![1] bcast_S160000_S1x160000_1 (V (Proc.devRef .tc main_arg7)))) := by
  simp only [opsMask]
  after_results_simp

attribute [local irreducible] Host.gather Host.scatterAdd Host.reduceAdd in
/-- The second sparse layer of the masked activations, its weights and its two index vectors. -/
theorem opsLin2_out (V : Valuation τ sig (Elt F)) :
    after opsLin2b (after opsLin2a V) (no_index (Proc.devRef .tc main_v56))
      = Spec.lin2 (V (Proc.devRef .tc main_v41)) (V (Proc.devRef .tc main_arg3)) (V (Proc.devRef .tc main_arg10)) (V (Proc.devRef .tc main_arg11)) := by
  rw [← after_append]
  simp only [opsLin2a, opsLin2b, List.cons_append, List.nil_append]
  after_results_simp
  rfl

attribute [local irreducible] Host.gather Host.scatterAdd Host.reduceAdd in
/-- The output bias and the residual. -/
theorem opsFin_out (V : Valuation τ sig (Elt F)) :
    after opsFin V (no_index (Proc.devRef .tc main_v60)) = Spec.fin (V (Proc.devRef .tc main_v56)) (V (Proc.devRef .tc main_arg4)) (V (Proc.devRef .tc main_arg0)) := by
  simp only [opsFin]
  after_results_simp
  rfl

/-! ## The whole line -/

attribute [local irreducible] Host.gather Host.scatterAdd Host.reduceAdd in
/-- The result buffer after the whole line, from any contents: the specification of the arguments' contents. -/
theorem out_eq (V : Valuation τ sig (Elt F)) :
    after ops V (Proc.devRef .tc main_v60)
      = Spec.out (V (Proc.devRef .tc main_arg0))
          (V (Proc.devRef .tc main_arg1))
          (V (Proc.devRef .tc main_arg2))
          (V (Proc.devRef .tc main_arg3))
          (V (Proc.devRef .tc main_arg4))
          (V (Proc.devRef .tc main_arg5))
          (V (Proc.devRef .tc main_arg6))
          (V (Proc.devRef .tc main_arg7))
          (V (Proc.devRef .tc main_arg8))
          (V (Proc.devRef .tc main_arg9))
          (V (Proc.devRef .tc main_arg10))
          (V (Proc.devRef .tc main_arg11)) := by
  simp only [ops, ops0, ops1, after_append]
  simp (disch := decide) only [opsFin_out, opsLin2_out, opsMask_out, opsElu_out, opsNorm_out, opsVar_out, opsMean_out,
    opsHb_out, opsLin1_out, opsFin_keep, opsLin2b_keep, opsLin2a_keep, opsMask_keep, opsElu_keep, opsNorm_keep, opsVar_keep, opsMean_keep, opsHb_keep, opsLin1_keep]
  rfl

/-- A buffer no stretch writes ends as it began. -/
theorem ops_keep (V : Valuation τ sig (Elt F)) {r : Ref sig .tc}
    (h : r ∉ opsLin1_W ∧ r ∉ opsHb_W ∧ r ∉ opsMean_W ∧ r ∉ opsVar_W ∧ r ∉ opsNorm_W ∧ r ∉ opsElu_W ∧ r ∉ opsMask_W ∧ r ∉ opsLin2a_W ∧ r ∉ opsLin2b_W ∧ r ∉ opsFin_W) :
    after ops V (Proc.devRef .tc r) = V (Proc.devRef .tc r) := by
  obtain ⟨h1, h2, h3, h4, h5, h6, h7, h8, h9, h10⟩ := h
  simp only [ops, ops0, ops1, after_append]
  rw [opsFin_keep _ h10, opsLin2b_keep _ h9, opsLin2a_keep _ h8, opsMask_keep _ h7, opsElu_keep _ h6, opsNorm_keep _ h5,
    opsVar_keep _ h4, opsMean_keep _ h3, opsHb_keep _ h2, opsLin1_keep _ h1]

/-- On every device, for any float values, from any memory with zero counters: every weakly fair execution of the
    program terminates with the result buffer at the specification of the arguments' launch contents, and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v60)
        = Cert.Spec.out (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v60).trans (out_eq _),
      (h c main_arg0).trans (ops_keep _ (by decide)),
      (h c main_arg1).trans (ops_keep _ (by decide)),
      (h c main_arg2).trans (ops_keep _ (by decide)),
      (h c main_arg3).trans (ops_keep _ (by decide)),
      (h c main_arg4).trans (ops_keep _ (by decide)),
      (h c main_arg5).trans (ops_keep _ (by decide)),
      (h c main_arg6).trans (ops_keep _ (by decide)),
      (h c main_arg7).trans (ops_keep _ (by decide)),
      (h c main_arg8).trans (ops_keep _ (by decide)),
      (h c main_arg9).trans (ops_keep _ (by decide)),
      (h c main_arg10).trans (ops_keep _ (by decide)),
      (h c main_arg11).trans (ops_keep _ (by decide))⟩)
    (run_seq scopedRefs_eq scopedSems_eq defs main (fun _ => ops) main_eq (fun _ => good_ops.1) m ρ (fun _ => good_ops.2))

/-- The same at the extended reals. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v60)
        = Cert.Spec.out (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  run m ρ

end Cert.RefSide

end
-- ==== Proof.lean ====
/- The proof of `Cert.Claim` for the sparse-layer / group-normalisation / sparse-layer network.
   Both idealized programs compute ONE function of the twelve arguments, `Cert.Spec.out` (Proof/Spec.lean): a sparse
   layer, the per-node normalisation with ELU and mask, a second sparse layer, the output bias and the residual.
   The reference computes it as a host chain (Proof/RefOps.lean, Proof/RefRun.lean: its run read back stage by
   stage). The kernel program computes the two sparse layers on the host and the rest in two regions: each region's
   output array is read through the cover of its blocks (Proof/Reg0.lean, Proof/Reg1.lean) with the bodies'
   arithmetic read at an index (Proof/BodyApply.lean), the host stretches between are read over an arbitrary
   valuation (Proof/Chain.lean), and the result is joined to the specification entry by entry (Proof/MidApply.lean,
   Proof/Bridge.lean, Proof/KRun.lean). No law used needs the inputs finite: both sides apply the same operations in
   the same order to the same entries, so the precondition is never opened. The idealization rewrote nothing, so
   `preserves` is trivial; the three frames are the generated frame certificates and the reference's run. -/
import proofs.«103248_j69870527971810_2_alg».proof.Defs
import proofs.«103248_j69870527971810_2_alg».proof.Proof.Gen.Kernel
import proofs.«103248_j69870527971810_2_alg».proof.Proof.Gen.Kernel.Frame
import proofs.«103248_j69870527971810_2_alg».proof.Proof.Gen.KernelIdeal
import proofs.«103248_j69870527971810_2_alg».proof.Proof.Gen.KernelIdeal.Frame
import proofs.«103248_j69870527971810_2_alg».proof.Proof.Gen.ReferenceIdeal
import proofs.«103248_j69870527971810_2_alg».proof.Proof.Gen.Pre_finite_inputs
import proofs.«103248_j69870527971810_2_alg».proof.Proof.KRun
import proofs.«103248_j69870527971810_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RefSide.ref_run m ρ)

theorem preserves : Cert.preserves_Kernel_KernelIdeal := trivial

/-- Both runs end with the result at the specification of their own arguments, and the arguments agree. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩) (Cert.RefSide.ref_run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
